-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x512x512 : Shape := ⟨4, ![32, 3, 512, 512]⟩
abbrev S_ : Shape := ⟨0, ![]⟩

class Facts : Prop where
  bcast_S_S32x3x512x512 : S_.BroadcastsInDim S32x3x512x512 (![] : Fin 0 → Fin S32x3x512x512.rank)
  reducesTo_S32x3x512x512_S_d0_1_2_3 : S32x3x512x512.ReducesTo [0, 1, 2, 3] S_
  h_S_ : 0 < S_.numel

variable [Facts]

def fn {F : FTy → Type} [FloatOps F] (main_arg0 : FVec F S32x3x512x512 .f32) (main_arg1 : FVec F S32x3x512x512 .f32) : IVec S_ 1 :=
  let main_v0 : FVec F S32x3x512x512 .f32 := Host.absf main_arg0
  let main_cst : FVec F S_ .f32 := constant S_ .f32 0x7F800000#32
  let main_v1 : FVec F S32x3x512x512 .f32 := broadcastInDim S32x3x512x512 ![] bcast_S_S32x3x512x512 main_cst
  let main_v2 : IVec S32x3x512x512 1 := cmpf .olt main_v0 main_v1
  let main_c : IVec S_ 1 := constantI S_ 1 1#1
  let main_v3 : IVec S_ 1 := (fun x v => Host.reduce IntOp.andi x v reducesTo_S32x3x512x512_S_d0_1_2_3 h_S_) main_v2 main_c
  let main_v4 : FVec F S32x3x512x512 .f32 := Host.absf main_arg1
  let main_cst_0 : FVec F S_ .f32 := constant S_ .f32 0x7F800000#32
  let main_v5 : FVec F S32x3x512x512 .f32 := broadcastInDim S32x3x512x512 ![] bcast_S_S32x3x512x512 main_cst_0
  let main_v6 : IVec S32x3x512x512 1 := cmpf .olt main_v4 main_v5
  let main_c_1 : IVec S_ 1 := constantI S_ 1 1#1
  let main_v7 : IVec S_ 1 := (fun x v => Host.reduce IntOp.andi x v reducesTo_S32x3x512x512_S_d0_1_2_3 h_S_) main_v6 main_c_1
  let main_v8 : IVec S_ 1 := andi main_v3 main_v7
  main_v8
-- ==== Kernel.lean ====
abbrev S32x3x512x512 : Shape := ⟨4, ![32, 3, 512, 512]⟩
abbrev S96x512x512 : Shape := ⟨3, ![96, 512, 512]⟩
abbrev S96x128 : Shape := ⟨2, ![96, 128]⟩
abbrev S8x512x512 : Shape := ⟨3, ![8, 512, 512]⟩
abbrev S8x128 : Shape := ⟨2, ![8, 128]⟩
abbrev S8 : Shape := ⟨1, ![8]⟩
abbrev S8x64x512 : Shape := ⟨3, ![8, 64, 512]⟩
abbrev S8x64 : Shape := ⟨2, ![8, 64]⟩
abbrev S8x123 : Shape := ⟨2, ![8, 123]⟩
abbrev S8x1 : Shape := ⟨2, ![8, 1]⟩
abbrev S96x5 : Shape := ⟨2, ![96, 5]⟩
abbrev S32x3x5 : Shape := ⟨3, ![32, 3, 5]⟩
abbrev S32x3x1 : Shape := ⟨3, ![32, 3, 1]⟩
abbrev S32x3 : Shape := ⟨2, ![32, 3]⟩
abbrev S_ : Shape := ⟨0, ![]⟩

abbrev nBuf : Space → Nat
  | .hbm => 70
  | .vmem => 6
  | .smem => 0
  | _ => 0

abbrev bufTy : (tb : Table) → Fin (tcTables nBuf tb) → BufTy
  | .hbm, ⟨0, _⟩ => ⟨S32x3x512x512, .f32⟩
  | .hbm, ⟨1, _⟩ => ⟨S32x3x512x512, .f32⟩
  | .hbm, ⟨2, _⟩ => ⟨S96x512x512, .f32⟩
  | .hbm, ⟨3, _⟩ => ⟨S96x512x512, .f32⟩
  | .hbm, ⟨4, _⟩ => ⟨S96x128, .f32⟩
  | .hbm, ⟨5, _⟩ => ⟨S96x5, .f32⟩
  | .hbm, ⟨6, _⟩ => ⟨S32x3x5, .f32⟩
  | .hbm, ⟨7, _⟩ => ⟨S32x3x1, .f32⟩
  | .hbm, ⟨8, _⟩ => ⟨S32x3, .f32⟩
  | .hbm, ⟨9, _⟩ => ⟨S32x3x1, .f32⟩
  | .hbm, ⟨10, _⟩ => ⟨S32x3, .f32⟩
  | .hbm, ⟨11, _⟩ => ⟨S32x3x1, .f32⟩
  | .hbm, ⟨12, _⟩ => ⟨S32x3, .f32⟩
  | .hbm, ⟨13, _⟩ => ⟨S32x3x1, .f32⟩
  | .hbm, ⟨14, _⟩ => ⟨S32x3, .f32⟩
  | .hbm, ⟨15, _⟩ => ⟨S32x3x1, .f32⟩
  | .hbm, ⟨16, _⟩ => ⟨S32x3, .f32⟩
  | .hbm, ⟨17, _⟩ => ⟨S_, .f32⟩
  | .hbm, ⟨18, _⟩ => ⟨S32x3, .f32⟩
  | .hbm, ⟨19, _⟩ => ⟨S32x3, .f32⟩
  | .hbm, ⟨20, _⟩ => ⟨S_, .f32⟩
  | .hbm, ⟨21, _⟩ => ⟨S32x3, .f32⟩
  | .hbm, ⟨22, _⟩ => ⟨S32x3, .f32⟩
  | .hbm, ⟨23, _⟩ => ⟨S32x3, .f32⟩
  | .hbm, ⟨24, _⟩ => ⟨S_, .f32⟩
  | .hbm, ⟨25, _⟩ => ⟨S32x3, .f32⟩
  | .hbm, ⟨26, _⟩ => ⟨S32x3, .f32⟩
  | .hbm, ⟨27, _⟩ => ⟨S32x3, .f32⟩
  | .hbm, ⟨28, _⟩ => ⟨S_, .f32⟩
  | .hbm, ⟨29, _⟩ => ⟨S32x3, .f32⟩
  | .hbm, ⟨30, _⟩ => ⟨S32x3, .f32⟩
  | .hbm, ⟨31, _⟩ => ⟨S32x3, .f32⟩
  | .hbm, ⟨32, _⟩ => ⟨S_, .f32⟩
  | .hbm, ⟨33, _⟩ => ⟨S32x3, .f32⟩
  | .hbm, ⟨34, _⟩ => ⟨S32x3, .f32⟩
  | .hbm, ⟨35, _⟩ => ⟨S32x3, .f32⟩
  | .hbm, ⟨36, _⟩ => ⟨S_, .f32⟩
  | .hbm, ⟨37, _⟩ => ⟨S32x3, .f32⟩
  | .hbm, ⟨38, _⟩ => ⟨S32x3, .f32⟩
  | .hbm, ⟨39, _⟩ => ⟨S_, .f32⟩
  | .hbm, ⟨40, _⟩ => ⟨S32x3, .f32⟩
  | .hbm, ⟨41, _⟩ => ⟨S32x3, .f32⟩
  | .hbm, ⟨42, _⟩ => ⟨S32x3, .f32⟩
  | .hbm, ⟨43, _⟩ => ⟨S32x3, .f32⟩
  | .hbm, ⟨44, _⟩ => ⟨S_, .f32⟩
  | .hbm, ⟨45, _⟩ => ⟨S32x3, .f32⟩
  | .hbm, ⟨46, _⟩ => ⟨S32x3, .f32⟩
  | .hbm, ⟨47, _⟩ => ⟨S32x3, .f32⟩
  | .hbm, ⟨48, _⟩ => ⟨S_, .f32⟩
  | .hbm, ⟨49, _⟩ => ⟨S32x3, .f32⟩
  | .hbm, ⟨50, _⟩ => ⟨S32x3, .f32⟩
  | .hbm, ⟨51, _⟩ => ⟨S_, .f32⟩
  | .hbm, ⟨52, _⟩ => ⟨S32x3, .f32⟩
  | .hbm, ⟨53, _⟩ => ⟨S32x3, .f32⟩
  | .hbm, ⟨54, _⟩ => ⟨S_, .f32⟩
  | .hbm, ⟨55, _⟩ => ⟨S32x3, .f32⟩
  | .hbm, ⟨56, _⟩ => ⟨S32x3, .f32⟩
  | .hbm, ⟨57, _⟩ => ⟨S32x3, .f32⟩
  | .hbm, ⟨58, _⟩ => ⟨S32x3, .f32⟩
  | .hbm, ⟨59, _⟩ => ⟨S32x3, .f32⟩
  | .hbm, ⟨60, _⟩ => ⟨S32x3, .f32⟩
  | .hbm, ⟨61, _⟩ => ⟨S_, .f32⟩
  | .hbm, ⟨62, _⟩ => ⟨S32x3, .f32⟩
  | .hbm, ⟨63, _⟩ => ⟨S32x3, .f32⟩
  | .hbm, ⟨64, _⟩ => ⟨S32x3, .f32⟩
  | .hbm, ⟨65, _⟩ => ⟨S_, .f32⟩
  | .hbm, ⟨66, _⟩ => ⟨S32x3, .f32⟩
  | .hbm, ⟨67, _⟩ => ⟨S32x3, .f32⟩
  | .hbm, ⟨68, _⟩ => ⟨S32x3, .f32⟩
  | .hbm, ⟨69, _⟩ => ⟨S32x3, .f32⟩
  | .local _ .vmem, ⟨0, _⟩ => ⟨S8x512x512, .f32⟩
  | .local _ .vmem, ⟨1, _⟩ => ⟨S8x512x512, .f32⟩
  | .local _ .vmem, ⟨2, _⟩ => ⟨S8x512x512, .f32⟩
  | .local _ .vmem, ⟨3, _⟩ => ⟨S8x512x512, .f32⟩
  | .local _ .vmem, ⟨4, _⟩ => ⟨S8x128, .f32⟩
  | .local _ .vmem, ⟨5, _⟩ => ⟨S8x128, .f32⟩
  | _, _ => ⟨S32x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst : Ref sig .tc := ⟨.hbm, 17, rfl⟩
abbrev main_v15 : Ref sig .tc := ⟨.hbm, 18, rfl⟩
abbrev main_v16 : Ref sig .tc := ⟨.hbm, 19, rfl⟩
abbrev main_cst_0 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_1 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_2 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_3 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_4 : Ref sig .tc := ⟨.hbm, 36, rfl⟩
abbrev main_v29 : Ref sig .tc := ⟨.hbm, 37, rfl⟩
abbrev main_v30 : Ref sig .tc := ⟨.hbm, 38, rfl⟩
abbrev main_cst_5 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_6 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_7 : Ref sig .tc := ⟨.hbm, 48, rfl⟩
abbrev main_v38 : Ref sig .tc := ⟨.hbm, 49, rfl⟩
abbrev main_v39 : Ref sig .tc := ⟨.hbm, 50, rfl⟩
abbrev main_cst_8 : Ref sig .tc := ⟨.hbm, 51, rfl⟩
abbrev main_v40 : Ref sig .tc := ⟨.hbm, 52, rfl⟩
abbrev main_v41 : Ref sig .tc := ⟨.hbm, 53, rfl⟩
abbrev main_cst_9 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_10 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_11 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![12], ![false]⟩

@[reducible] def k0_t1_loop : Scf.Loop 32 :=
  let c0_i32 : BitVec 32 := 0#32
  let c8_i32 : BitVec 32 := 8#32
  let v1 : BitVec 32 := Scalar.addi c0_i32 c8_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c64_i32 : BitVec 32 := 64#32
  let v11 : BitVec 32 := Scalar.muli arg4 c64_i32
  v11
def k0_off1 (k0_t1 : Fin k0_t1_loop.trips) : Fin 3 → Nat :=
  let c0_3 : Index := 0#32
  let c0_i32 : BitVec 32 := 0#32
  let c1_i32 : BitVec 32 := 1#32
  let arg4 : BitVec 32 := Scf.iv c0_i32 c1_i32 k0_t1
  let c64_i32 : BitVec 32 := 64#32
  let v11 : BitVec 32 := Scalar.muli arg4 c64_i32
  let v12 : BitVec 32 := v11
  let v13 : Index := Scalar.indexCast v12
  let c0_4 : Index := 0#32
  ![0, v13.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32x3x512x512_S96x512x512 : S32x3x512x512.ShapeCasts S96x512x512
  h_S8x64x512 : 0 < S8x64x512.numel
  shapeCasts_S8x64x512_S8x64x512 : S8x64x512.ShapeCasts S8x64x512
  reduces_S8x64x512_S8x64 : S8x64x512.Reduces [2] S8x64
  reduces_S8x64_S8 : S8x64.Reduces [1] S8
  shapeCasts_S8_S8x1 : S8.ShapeCasts S8x1
  concatenates_S8x1_S8x1_S8x1_S8x1_S8x1_S8x123_S8x128_d1 : Shape.Concatenates [S8x1, S8x1, S8x1, S8x1, S8x1, S8x123] S8x128 1
  inb_S8x128_S8x128_0_0 : ∀ a, (![0, 0] : Fin 2 → Nat) a + S8x128.size a ≤ S8x128.size a
  h_S8x128 : 0 < S8x128.numel
  slices_S96x128_S96x5_0_0 : S96x128.Slices ![0, 0] S96x5
  shapeCasts_S96x5_S32x3x5 : S96x5.ShapeCasts S32x3x5
  slices_S32x3x5_S32x3x1_0_0_0 : S32x3x5.Slices ![0, 0, 0] S32x3x1
  shapeCasts_S32x3x1_S32x3 : S32x3x1.ShapeCasts S32x3
  slices_S32x3x5_S32x3x1_0_0_1 : S32x3x5.Slices ![0, 0, 1] S32x3x1
  slices_S32x3x5_S32x3x1_0_0_2 : S32x3x5.Slices ![0, 0, 2] S32x3x1
  slices_S32x3x5_S32x3x1_0_0_3 : S32x3x5.Slices ![0, 0, 3] S32x3x1
  slices_S32x3x5_S32x3x1_0_0_4 : S32x3x5.Slices ![0, 0, 4] S32x3x1
  bcast_S_S32x3 : S_.BroadcastsInDim S32x3 (![] : Fin 0 → Fin S32x3.rank)
  hrank0 : 0 < grid0.rank
  k0_t1_ok : k0_t1_loop.OK
  k0_mult1_dvd : ∀ k0_t1 : Fin k0_t1_loop.trips, 64 ∣ (k0_mult1 k0_t1).toNat
  k0_off1_inb : ∀ k0_t1 : Fin k0_t1_loop.trips, ∀ a, (k0_off1 k0_t1) a + S8x64x512.size a ≤ S8x512x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x512.size a ≤ S96x512x512.size a
  hwx0_0 : ∀ i : grid0.Coords, EltTy.bits .f32 = 32 ∨ (Rect.block (s := S96x512x512) S8x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512x512.size a ≤ S96x512x512.size a
  hwx0_1 : ∀ i : grid0.Coords, EltTy.bits .f32 = 32 ∨ (Rect.block (s := S96x512x512) S8x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S96x128.size a
  hwx0_2 : ∀ i : grid0.Coords, EltTy.bits .f32 = 32 ∨ (Rect.block (s := S96x128) S8x128.size (cc0_transform_2 i) (hinb0_2 i)).WholeWords (EltTy.packing .f32)

variable [Facts₀]

abbrev win0_0 : Pipeline.Window sig grid0 :=
  Pipeline.Window.ofSpec (Memref.whole main_v0) S8x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x3x512x512 : Shape := ⟨4, ![32, 3, 512, 512]⟩
abbrev S_ : Shape := ⟨0, ![]⟩
abbrev S32x3 : Shape := ⟨2, ![32, 3]⟩
abbrev S32x3x1x1 : Shape := ⟨4, ![32, 3, 1, 1]⟩

abbrev nBuf : Space → Nat
  | .hbm => 62
  | .vmem => 0
  | .smem => 0
  | _ => 0

abbrev bufTy : (tb : Table) → Fin (tcTables nBuf tb) → BufTy
  | .hbm, ⟨0, _⟩ => ⟨S32x3x512x512, .f32⟩
  | .hbm, ⟨1, _⟩ => ⟨S32x3x512x512, .f32⟩
  | .hbm, ⟨2, _⟩ => ⟨S_, .f32⟩
  | .hbm, ⟨3, _⟩ => ⟨S32x3, .f32⟩
  | .hbm, ⟨4, _⟩ => ⟨S_, .f32⟩
  | .hbm, ⟨5, _⟩ => ⟨S32x3, .f32⟩
  | .hbm, ⟨6, _⟩ => ⟨S32x3, .f32⟩
  | .hbm, ⟨7, _⟩ => ⟨S_, .f32⟩
  | .hbm, ⟨8, _⟩ => ⟨S32x3, .f32⟩
  | .hbm, ⟨9, _⟩ => ⟨S_, .f32⟩
  | .hbm, ⟨10, _⟩ => ⟨S32x3, .f32⟩
  | .hbm, ⟨11, _⟩ => ⟨S32x3, .f32⟩
  | .hbm, ⟨12, _⟩ => ⟨S32x3x1x1, .f32⟩
  | .hbm, ⟨13, _⟩ => ⟨S32x3x512x512, .f32⟩
  | .hbm, ⟨14, _⟩ => ⟨S32x3x512x512, .f32⟩
  | .hbm, ⟨15, _⟩ => ⟨S32x3x1x1, .f32⟩
  | .hbm, ⟨16, _⟩ => ⟨S32x3x512x512, .f32⟩
  | .hbm, ⟨17, _⟩ => ⟨S32x3x512x512, .f32⟩
  | .hbm, ⟨18, _⟩ => ⟨S32x3x512x512, .f32⟩
  | .hbm, ⟨19, _⟩ => ⟨S_, .f32⟩
  | .hbm, ⟨20, _⟩ => ⟨S32x3, .f32⟩
  | .hbm, ⟨21, _⟩ => ⟨S_, .f32⟩
  | .hbm, ⟨22, _⟩ => ⟨S32x3, .f32⟩
  | .hbm, ⟨23, _⟩ => ⟨S32x3, .f32⟩
  | .hbm, ⟨24, _⟩ => ⟨S32x3x512x512, .f32⟩
  | .hbm, ⟨25, _⟩ => ⟨S_, .f32⟩
  | .hbm, ⟨26, _⟩ => ⟨S32x3, .f32⟩
  | .hbm, ⟨27, _⟩ => ⟨S_, .f32⟩
  | .hbm, ⟨28, _⟩ => ⟨S32x3, .f32⟩
  | .hbm, ⟨29, _⟩ => ⟨S32x3, .f32⟩
  | .hbm, ⟨30, _⟩ => ⟨S32x3x512x512, .f32⟩
  | .hbm, ⟨31, _⟩ => ⟨S_, .f32⟩
  | .hbm, ⟨32, _⟩ => ⟨S32x3, .f32⟩
  | .hbm, ⟨33, _⟩ => ⟨S_, .f32⟩
  | .hbm, ⟨34, _⟩ => ⟨S32x3, .f32⟩
  | .hbm, ⟨35, _⟩ => ⟨S32x3, .f32⟩
  | .hbm, ⟨36, _⟩ => ⟨S_, .f32⟩
  | .hbm, ⟨37, _⟩ => ⟨S32x3, .f32⟩
  | .hbm, ⟨38, _⟩ => ⟨S32x3, .f32⟩
  | .hbm, ⟨39, _⟩ => ⟨S32x3, .f32⟩
  | .hbm, ⟨40, _⟩ => ⟨S_, .f32⟩
  | .hbm, ⟨41, _⟩ => ⟨S32x3, .f32⟩
  | .hbm, ⟨42, _⟩ => ⟨S32x3, .f32⟩
  | .hbm, ⟨43, _⟩ => ⟨S_, .f32⟩
  | .hbm, ⟨44, _⟩ => ⟨S32x3, .f32⟩
  | .hbm, ⟨45, _⟩ => ⟨S32x3, .f32⟩
  | .hbm, ⟨46, _⟩ => ⟨S_, .f32⟩
  | .hbm, ⟨47, _⟩ => ⟨S32x3, .f32⟩
  | .hbm, ⟨48, _⟩ => ⟨S32x3, .f32⟩
  | .hbm, ⟨49, _⟩ => ⟨S32x3, .f32⟩
  | .hbm, ⟨50, _⟩ => ⟨S32x3, .f32⟩
  | .hbm, ⟨51, _⟩ => ⟨S32x3, .f32⟩
  | .hbm, ⟨52, _⟩ => ⟨S32x3, .f32⟩
  | .hbm, ⟨53, _⟩ => ⟨S_, .f32⟩
  | .hbm, ⟨54, _⟩ => ⟨S32x3, .f32⟩
  | .hbm, ⟨55, _⟩ => ⟨S32x3, .f32⟩
  | .hbm, ⟨56, _⟩ => ⟨S32x3, .f32⟩
  | .hbm, ⟨57, _⟩ => ⟨S_, .f32⟩
  | .hbm, ⟨58, _⟩ => ⟨S32x3, .f32⟩
  | .hbm, ⟨59, _⟩ => ⟨S32x3, .f32⟩
  | .hbm, ⟨60, _⟩ => ⟨S32x3, .f32⟩
  | .hbm, ⟨61, _⟩ => ⟨S32x3, .f32⟩
  | _, _ => ⟨S32x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_cst_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_cst_9 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_10 : Ref sig .tc := ⟨.hbm, 40, rfl⟩
abbrev main_v27 : Ref sig .tc := ⟨.hbm, 41, rfl⟩
abbrev main_v28 : Ref sig .tc := ⟨.hbm, 42, rfl⟩
abbrev main_cst_11 : Ref sig .tc := ⟨.hbm, 43, rfl⟩
abbrev main_v29 : Ref sig .tc := ⟨.hbm, 44, rfl⟩
abbrev main_v30 : Ref sig .tc := ⟨.hbm, 45, rfl⟩
abbrev main_cst_12 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_13 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_14 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]

class Facts₀ : Prop where
  reducesTo_S32x3x512x512_S32x3_d2_3 : S32x3x512x512.ReducesTo [2, 3] S32x3
  h_S_ : 0 < S_.numel
  bcast_S_S32x3 : S_.BroadcastsInDim S32x3 (![] : Fin 0 → Fin S32x3.rank)
  bcast_S32x3_S32x3x1x1_0_1 : S32x3.BroadcastsInDim S32x3x1x1 (![0, 1] : Fin 2 → Fin S32x3x1x1.rank)
  bcast_S32x3x1x1_S32x3x512x512_0_1_2_3 : S32x3x1x1.BroadcastsInDim S32x3x512x512 (![0, 1, 2, 3] : Fin 4 → Fin S32x3x512x512.rank)

variable [Facts₀]

class Facts : Prop extends Facts₀ where

variable [Facts]
-- ==== Proof.WordMain.lean ====
/-
  @main of `Kernel` around its one region.

  @main is: two reshapes of the argument images to 96 x 512 x 512, the region (a pipeline of 12 grid points,
  each staging an 8-channel slab of both images and writing back an 8 x 128 block of per-channel sums), and
  65 further host operations that turn columns 0..4 of the 96 x 128 result into the 32 x 3 answer.

  Stated here: what each device buffer holds when the region is entered (`V`: the launch contents after the two
  reshapes), that @main reduces to the region continued by the later operations (`hmain`), that those later
  operations touch only unscoped device buffers, allocate nothing and never write one of the pipeline's three
  arrays (`sfx_sub`, `sfx_fresh`, `sfx_keeps`), that the reshapes leave the two argument images as launched
  (`V_main_arg0`, `V_main_arg1`), each window's block at a grid point (`iblk`), and that an input window's
  current staging buffer always holds that block (`before0_0_of`, `before0_1_of`).
-/
import proofs.«137015_j20375324852448_2_alg».proof.Proof.Gen.Kernel.Launch
import proofs.«137015_j20375324852448_2_alg».proof.Proof.Gen.Kernel.Skeleton
import proofs.«137015_j20375324852448_2_alg».proof.Proof.Gen.Kernel.Loops
import proofs.«137015_j20375324852448_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s device buffers when the region is entered, as a valuation: the launch contents after the two reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The two reshapes allocate nothing. -/
theorem hostOps0_fresh : (hostOps0 : List (HloOp τ sig (Elt F))).Forall fun op => op.fresh = ∅ := by
  simp only [List.Forall]; repeat' constructor

/-- Nor does any of the 65 later operations. -/
theorem hostOps1_fresh : (hostOps1 : List (HloOp τ sig (Elt F))).Forall fun op => op.fresh = ∅ := by
  simp only [List.Forall]; repeat' constructor

/-- @main reduces to the region CONTINUED BY the later operations, the buffers at `V` when it is entered. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later operations touch unscoped device buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- None writes one of the pipeline's three arrays: each writes only its own result buffer, a later one. -/
theorem hostOps1_keeps : (hostOps1 : List (HloOp τ sig (Elt F))).Forall fun op =>
    ∀ w, Proc.devRef .tc (Pipeline.arrRef spec0 w) ∉ op.writes := by
  simp only [List.Forall]
  repeat' constructor
  all_goals intro w; fin_cases w <;> simp only [StableHlo.nullary_writes, StableHlo.unary_writes, StableHlo.binary_writes, StableHlo.reshape_writes, Finset.mem_singleton] <;> exact StableHlo.devRef_ne_of_ne (by decide)

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  exact (List.forall_iff_forall_mem.mp hostOps1_keeps) op hop

/-- The reshapes write the two 96 x 512 x 512 copies, not the argument images. -/
theorem V_main_arg0 (c : Dev nD) : V m c main_arg0 = m ((c : Thread nD τ).loc main_arg0) := by
  dsimp only [V, V0]
  simp only [List.flatten_cons, List.flatten_nil, List.append_nil]
  after_results
theorem V_main_arg1 (c : Dev nD) : V m c main_arg1 = m ((c : Thread nD τ).loc main_arg1) := by
  dsimp only [V, V0]
  simp only [List.flatten_cons, List.flatten_nil, List.append_nil]
  after_results

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data whose array is the
    region-entry one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for input window 1. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The staging memrefs the body is called on -/

/-- One staging buffer of the output window, through which its contents are stated. -/
abbrev VO0_2 : View sig .tc .vmem S8x128 .f32 := (Memref.whole cc0_stg2_0 : Memref sig .tc .vmem S8x128 .f32).view
/-- Each window's current staging memref at point `t`, and its wholeness. -/
abbrev ms0_0 (t : Fin cfg0.N) : Memref sig .tc .vmem S8x512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x128 .f32 := win0_2.stage (cfg0.slots t 2)
abbrev hs0_2 (t : Fin cfg0.N) : (ms0_2 t).IsWhole := hstage0_2 ((cfg0.slots t 2).cast nbuf0_2)

/-- No window is ever idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel

end Cert.Kernel.Hand

end
-- ==== Proof.WordBody.lean ====
/-
  The kernel body of `Kernel` run once, on any whole staging memrefs.

  The body walks the 512 rows of its two 8 x 512 x 512 input blocks in 8 chunks of 64 rows, carrying five
  8-vectors (per channel: the running sums of x, y, x*x, y*y and x*y); after the loop it loads the 8 x 128
  output block (a value nothing uses), and stores over the whole block the five sums as columns 0..4 beside
  123 columns of zeros. Holding the two input memrefs at contents `x0`, `x1` and the output memref at anything,
  it runs to its return with the inputs untouched and the output memref holding the one stored piece: the piece
  list `L2` is what the run itself finds.
-/
import proofs.«137015_j20375324852448_2_alg».proof.Proof.WordMain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large
set_option maxHeartbeats 1000000 in
/-- The body's run and the piece it leaves in the output's staging memref. -/
noncomputable def kernelRun0 (c : Dev nD) (i : grid0.Coords) (arg1 : Memref sig .tc .vmem S8x512x512 .f32) (harg1 : arg1.IsWhole) (arg2 : Memref sig .tc .vmem S8x512x512 .f32) (harg2 : arg2.IsWhole) (arg3 : Memref sig .tc .vmem S8x128 .f32) (harg3 : arg3.IsWhole)
    (x0 : Vec F S8x512x512 .f32) (x1 : Vec F S8x512x512 .f32) :
    { L2 : List (View.Piece (Elt F) S8x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc0__ssim_stats_kernel i arg1 harg1 arg2 harg2 arg3 harg3) K } := by
  refine ⟨?_, fun E K => ?run⟩
  case run =>
    simp only [cc0__ssim_stats_kernel_eq_skeleton]; unfold cc0__ssim_stats_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.Kernel.Hand

end
-- ==== Proof.WordFrame.lean ====
/-
  The frame of `Kernel`: it runs to the end, faults nowhere, and leaves both argument images as launched.

  The pipeline's proof data: the three arrays as the region finds them; after the body at a grid point each
  input's staging buffer still holds its block and the output's holds the stored piece read back (`out0_2`);
  the region invariant is the class's (nothing is carried between points); nothing is owed. The body obligation
  at a point is the body's run on the point's staging memrefs. The launch theorem for a region with host
  operations on both sides then gives the run (`run_main`): every array of the pipeline ends at what the proof
  data computes and every other unscoped buffer at what the 65 later operations leave. The two argument images
  are such other buffers, written by no operation: they end as launched (`frame`).
-/
import proofs.«137015_j20375324852448_2_alg».proof.Proof.WordBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The one stored piece tiles the 8 x 128 block, so the pieces cover it. -/
theorem cover0_2 (c : Dev nD) (i : grid0.Coords) (arg1 : Memref sig .tc .vmem S8x512x512 .f32) (harg1 : arg1.IsWhole) (arg2 : Memref sig .tc .vmem S8x512x512 .f32) (harg2 : arg2.IsWhole) (arg3 : Memref sig .tc .vmem S8x128 .f32) (harg3 : arg3.IsWhole)
    (x0 : Vec F S8x512x512 .f32) (x1 : Vec F S8x512x512 .f32) (y : S8x128.Idx) :
    ∃ pc ∈ (kernelRun0 c i arg1 harg1 arg2 harg2 arg3 harg3 x0 x1).1, y ∈ pc.1.set :=
  View.cover_of_tiledL (kernelRun0 c i arg1 harg1 arg2 harg2 arg3 harg3 x0 x1).1 S8x128.size (by sl_kernel_rfl) y

/-- What the body leaves in the output's staging buffer: its piece read back over anything. -/
def out0_2 (c : Dev nD) (i : grid0.Coords) (arg1 : Memref sig .tc .vmem S8x512x512 .f32) (harg1 : arg1.IsWhole) (arg2 : Memref sig .tc .vmem S8x512x512 .f32) (harg2 : arg2.IsWhole) (arg3 : Memref sig .tc .vmem S8x128 .f32) (harg3 : arg3.IsWhole)
    (x0 : Vec F S8x512x512 .f32) (x1 : Vec F S8x512x512 .f32) : Vec F S8x128 .f32 :=
  VO0_2.read (Elt F) (VO0_2.writes (Elt F) VO0_2.junk (kernelRun0 c i arg1 harg1 arg2 harg2 arg3 harg3 x0 x1).1)

/-! ## The pipeline's proof data -/

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 c (grid0.coords t) (ms0_0 t) (hs0_0 t) (ms0_1 t) (hs0_1 t) (ms0_2 t) (hs0_2 t) (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t
    = out0_2 c (grid0.coords t) (ms0_0 t) (hs0_0 t) (ms0_1 t) (hs0_1 t) (ms0_2 t) (hs0_2 t) (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 1600000 in
/-- The body at any point: the inputs' memrefs hold their blocks, the output's anything; the run applies; the
    invariant passes through unread; the output's memref comes back at its piece read back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  unfold out0_2
  iintro ⟨HΦ, Ho, ⟨%d0, H0⟩, ⟨%d1, H1⟩, ⟨%d2, H2⟩⟩
  iapply ((kernelRun0 c (grid0.coords t) _ _ _ _ _ _ (iblk m c 0 t) (iblk m c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover0_2 c _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what
    the proof data computes and every other unscoped buffer as the 65 later operations leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- An argument image is no array of the pipeline and no later operation writes it: after the run it is as launched. -/
theorem tail_main_arg0 (c : Dev nD) :
    Pipeline.afterTail₀ cfgs (dats m) 0 (V0 m) [hostOps1] c main_arg0 = m ((c : Thread nD τ).loc main_arg0) := by
  unfold Pipeline.afterTail₀
  show StableHlo.after (List.flatten [hostOps1]) _ (Proc.devRef .tc main_arg0) = _
  simp only [List.flatten_cons, List.flatten_nil, List.append_nil]
  after_results
  rw [Pipeline.withArrays_of_ne _ _ _ _ main_arg0 (by intro w; fin_cases w <;> decide)]
  exact V_main_arg0 m c
theorem tail_main_arg1 (c : Dev nD) :
    Pipeline.afterTail₀ cfgs (dats m) 0 (V0 m) [hostOps1] c main_arg1 = m ((c : Thread nD τ).loc main_arg1) := by
  unfold Pipeline.afterTail₀
  show StableHlo.after (List.flatten [hostOps1]) _ (Proc.devRef .tc main_arg1) = _
  simp only [List.flatten_cons, List.flatten_nil, List.append_nil]
  after_results
  rw [Pipeline.withArrays_of_ne _ _ _ _ main_arg1 (by intro w; fin_cases w <;> decide)]
  exact V_main_arg1 m c

theorem main_arg0_rest : main_arg0 ∈ Pipeline.restRefs sig spec0 := by decide
theorem main_arg1_rest : main_arg1 ∈ Pipeline.restRefs sig spec0 := by decide

/-- THE FRAME, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 main_arg0_rest).trans (tail_main_arg0 m c),
      ((h c).2 main_arg1 main_arg1_rest).trans (tail_main_arg1 m c)⟩) (run_main m ρ)

end Cert.Kernel.Hand

end
-- ==== Proof.IdealMain.lean ====
/-
  @main of `KernelIdeal` around its one region.

  @main is: two reshapes of the argument images to 96 x 512 x 512, the region (a pipeline of 12 grid points,
  each staging an 8-channel slab of both images and writing back an 8 x 128 block of per-channel sums), and
  65 further host operations that turn columns 0..4 of the 96 x 128 result into the 32 x 3 answer.

  Stated here: what each device buffer holds when the region is entered (`V`: the launch contents after the two
  reshapes), that @main reduces to the region continued by the later operations (`hmain`), that those later
  operations touch only unscoped device buffers, allocate nothing and never write one of the pipeline's three
  arrays (`sfx_sub`, `sfx_fresh`, `sfx_keeps`), that the reshapes leave the two argument images as launched
  (`V_main_arg0`, `V_main_arg1`), each window's block at a grid point (`iblk`), and that an input window's
  current staging buffer always holds that block (`before0_0_of`, `before0_1_of`).
-/
import proofs.«137015_j20375324852448_2_alg».proof.Proof.Gen.KernelIdeal.Launch
import proofs.«137015_j20375324852448_2_alg».proof.Proof.Gen.KernelIdeal.Skeleton
import proofs.«137015_j20375324852448_2_alg».proof.Proof.Gen.KernelIdeal.Loops
import proofs.«137015_j20375324852448_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s device buffers when the region is entered, as a valuation: the launch contents after the two reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The two reshapes allocate nothing. -/
theorem hostOps0_fresh : (hostOps0 : List (HloOp τ sig (Elt F))).Forall fun op => op.fresh = ∅ := by
  simp only [List.Forall]; repeat' constructor

/-- Nor does any of the 65 later operations. -/
theorem hostOps1_fresh : (hostOps1 : List (HloOp τ sig (Elt F))).Forall fun op => op.fresh = ∅ := by
  simp only [List.Forall]; repeat' constructor

/-- @main reduces to the region CONTINUED BY the later operations, the buffers at `V` when it is entered. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later operations touch unscoped device buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- None writes one of the pipeline's three arrays: each writes only its own result buffer, a later one. -/
theorem hostOps1_keeps : (hostOps1 : List (HloOp τ sig (Elt F))).Forall fun op =>
    ∀ w, Proc.devRef .tc (Pipeline.arrRef spec0 w) ∉ op.writes := by
  simp only [List.Forall]
  repeat' constructor
  all_goals intro w; fin_cases w <;> simp only [StableHlo.nullary_writes, StableHlo.unary_writes, StableHlo.binary_writes, StableHlo.reshape_writes, Finset.mem_singleton] <;> exact StableHlo.devRef_ne_of_ne (by decide)

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  exact (List.forall_iff_forall_mem.mp hostOps1_keeps) op hop

/-- The reshapes write the two 96 x 512 x 512 copies, not the argument images. -/
theorem V_main_arg0 (c : Dev nD) : V m c main_arg0 = m ((c : Thread nD τ).loc main_arg0) := by
  dsimp only [V, V0]
  simp only [List.flatten_cons, List.flatten_nil, List.append_nil]
  after_results
theorem V_main_arg1 (c : Dev nD) : V m c main_arg1 = m ((c : Thread nD τ).loc main_arg1) := by
  dsimp only [V, V0]
  simp only [List.flatten_cons, List.flatten_nil, List.append_nil]
  after_results

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data whose array is the
    region-entry one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for input window 1. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The staging memrefs the body is called on -/

/-- One staging buffer of the output window, through which its contents are stated. -/
abbrev VO0_2 : View sig .tc .vmem S8x128 .f32 := (Memref.whole cc0_stg2_0 : Memref sig .tc .vmem S8x128 .f32).view
/-- Each window's current staging memref at point `t`, and its wholeness. -/
abbrev ms0_0 (t : Fin cfg0.N) : Memref sig .tc .vmem S8x512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x128 .f32 := win0_2.stage (cfg0.slots t 2)
abbrev hs0_2 (t : Fin cfg0.N) : (ms0_2 t).IsWhole := hstage0_2 ((cfg0.slots t 2).cast nbuf0_2)

/-- No window is ever idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel

end Cert.KernelIdeal.Hand

end
-- ==== Proof.IdealBody.lean ====
/-
  The kernel body of `KernelIdeal` run once, on any whole staging memrefs.

  The body walks the 512 rows of its two 8 x 512 x 512 input blocks in 8 chunks of 64 rows, carrying five
  8-vectors (per channel: the running sums of x, y, x*x, y*y and x*y); after the loop it loads the 8 x 128
  output block (a value nothing uses), and stores over the whole block the five sums as columns 0..4 beside
  123 columns of zeros. Holding the two input memrefs at contents `x0`, `x1` and the output memref at anything,
  it runs to its return with the inputs untouched and the output memref holding the one stored piece: the piece
  list `L2` is what the run itself finds.
-/
import proofs.«137015_j20375324852448_2_alg».proof.Proof.IdealMain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large
set_option maxHeartbeats 1000000 in
/-- The body's run and the piece it leaves in the output's staging memref. -/
noncomputable def kernelRun0 (c : Dev nD) (i : grid0.Coords) (arg1 : Memref sig .tc .vmem S8x512x512 .f32) (harg1 : arg1.IsWhole) (arg2 : Memref sig .tc .vmem S8x512x512 .f32) (harg2 : arg2.IsWhole) (arg3 : Memref sig .tc .vmem S8x128 .f32) (harg3 : arg3.IsWhole)
    (x0 : Vec F S8x512x512 .f32) (x1 : Vec F S8x512x512 .f32) :
    { L2 : List (View.Piece (Elt F) S8x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc0__ssim_stats_kernel i arg1 harg1 arg2 harg2 arg3 harg3) K } := by
  refine ⟨?_, fun E K => ?run⟩
  case run =>
    simp only [cc0__ssim_stats_kernel_eq_skeleton]; unfold cc0__ssim_stats_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.KernelIdeal.Hand

end
-- ==== Proof.IdealFrame.lean ====
/-
  The frame of `KernelIdeal`: it runs to the end, faults nowhere, and leaves both argument images as launched.

  The pipeline's proof data: the three arrays as the region finds them; after the body at a grid point each
  input's staging buffer still holds its block and the output's holds the stored piece read back (`out0_2`);
  the region invariant is the class's (nothing is carried between points); nothing is owed. The body obligation
  at a point is the body's run on the point's staging memrefs. The launch theorem for a region with host
  operations on both sides then gives the run (`run_main`): every array of the pipeline ends at what the proof
  data computes and every other unscoped buffer at what the 65 later operations leave. The two argument images
  are such other buffers, written by no operation: they end as launched (`frame`).
-/
import proofs.«137015_j20375324852448_2_alg».proof.Proof.IdealBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The one stored piece tiles the 8 x 128 block, so the pieces cover it. -/
theorem cover0_2 (c : Dev nD) (i : grid0.Coords) (arg1 : Memref sig .tc .vmem S8x512x512 .f32) (harg1 : arg1.IsWhole) (arg2 : Memref sig .tc .vmem S8x512x512 .f32) (harg2 : arg2.IsWhole) (arg3 : Memref sig .tc .vmem S8x128 .f32) (harg3 : arg3.IsWhole)
    (x0 : Vec F S8x512x512 .f32) (x1 : Vec F S8x512x512 .f32) (y : S8x128.Idx) :
    ∃ pc ∈ (kernelRun0 c i arg1 harg1 arg2 harg2 arg3 harg3 x0 x1).1, y ∈ pc.1.set :=
  View.cover_of_tiledL (kernelRun0 c i arg1 harg1 arg2 harg2 arg3 harg3 x0 x1).1 S8x128.size (by sl_kernel_rfl) y

/-- What the body leaves in the output's staging buffer: its piece read back over anything. -/
def out0_2 (c : Dev nD) (i : grid0.Coords) (arg1 : Memref sig .tc .vmem S8x512x512 .f32) (harg1 : arg1.IsWhole) (arg2 : Memref sig .tc .vmem S8x512x512 .f32) (harg2 : arg2.IsWhole) (arg3 : Memref sig .tc .vmem S8x128 .f32) (harg3 : arg3.IsWhole)
    (x0 : Vec F S8x512x512 .f32) (x1 : Vec F S8x512x512 .f32) : Vec F S8x128 .f32 :=
  VO0_2.read (Elt F) (VO0_2.writes (Elt F) VO0_2.junk (kernelRun0 c i arg1 harg1 arg2 harg2 arg3 harg3 x0 x1).1)

/-! ## The pipeline's proof data -/

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 c (grid0.coords t) (ms0_0 t) (hs0_0 t) (ms0_1 t) (hs0_1 t) (ms0_2 t) (hs0_2 t) (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t
    = out0_2 c (grid0.coords t) (ms0_0 t) (hs0_0 t) (ms0_1 t) (hs0_1 t) (ms0_2 t) (hs0_2 t) (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 1600000 in
/-- The body at any point: the inputs' memrefs hold their blocks, the output's anything; the run applies; the
    invariant passes through unread; the output's memref comes back at its piece read back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  unfold out0_2
  iintro ⟨HΦ, Ho, ⟨%d0, H0⟩, ⟨%d1, H1⟩, ⟨%d2, H2⟩⟩
  iapply ((kernelRun0 c (grid0.coords t) _ _ _ _ _ _ (iblk m c 0 t) (iblk m c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover0_2 c _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what
    the proof data computes and every other unscoped buffer as the 65 later operations leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- An argument image is no array of the pipeline and no later operation writes it: after the run it is as launched. -/
theorem tail_main_arg0 (c : Dev nD) :
    Pipeline.afterTail₀ cfgs (dats m) 0 (V0 m) [hostOps1] c main_arg0 = m ((c : Thread nD τ).loc main_arg0) := by
  unfold Pipeline.afterTail₀
  show StableHlo.after (List.flatten [hostOps1]) _ (Proc.devRef .tc main_arg0) = _
  simp only [List.flatten_cons, List.flatten_nil, List.append_nil]
  after_results
  rw [Pipeline.withArrays_of_ne _ _ _ _ main_arg0 (by intro w; fin_cases w <;> decide)]
  exact V_main_arg0 m c
theorem tail_main_arg1 (c : Dev nD) :
    Pipeline.afterTail₀ cfgs (dats m) 0 (V0 m) [hostOps1] c main_arg1 = m ((c : Thread nD τ).loc main_arg1) := by
  unfold Pipeline.afterTail₀
  show StableHlo.after (List.flatten [hostOps1]) _ (Proc.devRef .tc main_arg1) = _
  simp only [List.flatten_cons, List.flatten_nil, List.append_nil]
  after_results
  rw [Pipeline.withArrays_of_ne _ _ _ _ main_arg1 (by intro w; fin_cases w <;> decide)]
  exact V_main_arg1 m c

theorem main_arg0_rest : main_arg0 ∈ Pipeline.restRefs sig spec0 := by decide
theorem main_arg1_rest : main_arg1 ∈ Pipeline.restRefs sig spec0 := by decide

/-- THE FRAME, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 main_arg0_rest).trans (tail_main_arg0 m c),
      ((h c).2 main_arg1 main_arg1_rest).trans (tail_main_arg1 m c)⟩) (run_main m ρ)

end Cert.KernelIdeal.Hand

end
-- ==== Proof.LibChunkSum.lean ====
/-
  A sum accumulated chunk by chunk.

  If a sequence `P 0, P 1, …` starts at zero and each step adds the next `B` consecutive terms of `g`
  (step `k` adds `g (B*k), …, g (B*k + B - 1)`), then after `C` steps it is the sum of all `C*B` terms.
  General: any additive commutative monoid, any chunk size and count. Library imports only.
-/
import Mathlib.Algebra.BigOperators.Fin
import Mathlib.Algebra.BigOperators.Intervals

namespace Cert.LibChunkSum

/-- Term `j` of chunk `k` lies among the `C * B` terms. -/
theorem chunk_lt {C B N k j : ℕ} (hN : N = C * B) (hk : k < C) (hj : j < B) : B * k + j < N := by
  have h1 : B * k + j < B * (k + 1) := by rw [Nat.mul_succ]; omega
  have h2 : B * (k + 1) ≤ B * C := Nat.mul_le_mul_left B hk
  rw [hN, Nat.mul_comm C B]; omega

/-- The sum of `g` over `Fin N`, `N = C * B`, reached by `C` steps each adding one chunk of `B` consecutive terms. -/
theorem sum_by_chunks {M : Type*} [AddCommMonoid M] (C B N : ℕ) (hN : N = C * B) (g : Fin N → M) (P : ℕ → M)
    (h0 : P 0 = 0)
    (hs : ∀ (k : ℕ) (hk : k < C), P (k + 1) = P k + ∑ j : Fin B, g ⟨B * k + j.val, chunk_lt hN hk j.isLt⟩) :
    P C = ∑ i : Fin N, g i := by
  -- the terms as a function of a natural number (anything past the end)
  obtain ⟨g', hg'⟩ : ∃ g' : ℕ → M, ∀ (i : ℕ) (h : i < N), g' i = g ⟨i, h⟩ :=
    ⟨fun i => if h : i < N then g ⟨i, h⟩ else 0, fun i h => dif_pos h⟩
  have key : ∀ n, n ≤ C → P n = ∑ i ∈ Finset.range (B * n), g' i := by
    intro n
    induction n with
    | zero => intro _; simp [h0]
    | succ n ih =>
      intro hn
      have hk : n < C := hn
      rw [hs n hk, ih (Nat.le_of_lt hk), Nat.mul_succ, Finset.sum_range_add]
      congr 1
      rw [Finset.sum_range]
      refine Finset.sum_congr rfl fun j _ => ?_
      exact (hg' _ (chunk_lt hN hk j.isLt)).symm
  rw [key C le_rfl, show B * C = N by rw [hN, Nat.mul_comm], Finset.sum_range]
  exact Finset.sum_congr rfl fun i _ => hg' i.val i.isLt

end Cert.LibChunkSum
-- ==== Proof.IdealPayload.lean ====
/-
  The kernel body's arithmetic at the extended reals, read at an index.

  One trip of the body's loop takes rows 64k .. 64k+63 of both 8 x 512 x 512 input blocks (`chunk_apply`) and
  adds to each of five 8-vectors the sum over those 64 x 512 positions of, respectively, x, y, x*x, y*y and x*y
  (`pay_sum` and the five payload lemmas): a lane sum along the columns, then a sum along the rows, then the
  addition to the carried value. The carried values start at zero (`pay1_apply`), so after the eight trips each
  is the sum over all 512 x 512 positions of its channel (`loop_sums`, by the chunk-by-chunk lemma). The block
  the body stores has these five sums in columns 0..4 and zero in the other 123 (`pay9_apply`).
-/
import proofs.«137015_j20375324852448_2_alg».proof.Proof.IdealFrame
import proofs.«137015_j20375324852448_2_alg».proof.Proof.LibChunkSum
import Idealize.ShloMosaic.PureOps.Ideal.Laws
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

/-- The sum over the 64 x 512 positions of channel `r` of a chunk-shaped vector. -/
def chunkSum (u : FVec Ideal S8x64x512 .f32) (r : Fin 8) : EReal := ∑ h : Fin 64, ∑ w : Fin 512, u (ix3 r h w)

/-- A lane sum along the columns, a sum along the rows, added to `acc`: at channel `r` it is `acc r` plus the
    chunk's sum over the channel. -/
theorem pay_sum (acc : FVec Ideal S8 .f32) (u : FVec Ideal S8x64x512 .f32) (r : Fin 8) :
    addf acc (multiReduction .add [1] S8 (multiReduction .add [2] S8x64 u 0x00000000#32 reduces_S8x64x512_S8x64 (.inl rfl) rfl)
        0x00000000#32 reduces_S8x64_S8 (.inl rfl) rfl) (ix1 r)
      = acc (ix1 r) + chunkSum u r := by
  show acc (ix1 r) + _ = _
  refine congrArg (acc (ix1 r) + ·) ?_
  refine (Ideal.multiReduction_add_single _ _ reduces_S8x64_S8 _ _ (ix1 r)).trans ?_
  refine Finset.sum_congr rfl fun h _ => ?_
  refine (Ideal.multiReduction_add_single _ _ reduces_S8x64x512_S8x64 _ _ _).trans ?_
  refine Finset.sum_congr rfl fun w _ => ?_
  exact congrArg u (funext fun a => match a with
    | ⟨0, _⟩ => rfl
    | ⟨1, _⟩ => rfl
    | ⟨2, _⟩ => rfl)

theorem pay4_apply (acc : FVec Ideal S8 .f32) (v : Vec Ideal S8x64x512 .f32) (r : Fin 8) :
    k0_pay4 (F := Ideal) acc v (ix1 r) = acc (ix1 r) + chunkSum v r := by
  unfold k0_pay4 k0_pay2
  rw [shapeCast_self]
  exact pay_sum acc v r
theorem pay5_apply (acc : FVec Ideal S8 .f32) (v : Vec Ideal S8x64x512 .f32) (r : Fin 8) :
    k0_pay5 (F := Ideal) acc v (ix1 r) = acc (ix1 r) + chunkSum v r := by
  unfold k0_pay5 k0_pay3
  rw [shapeCast_self]
  exact pay_sum acc v r
theorem pay6_apply (acc : FVec Ideal S8 .f32) (v : Vec Ideal S8x64x512 .f32) (r : Fin 8) :
    k0_pay6 (F := Ideal) acc v (ix1 r) = acc (ix1 r) + chunkSum (fun i => FloatOps.mulf (v i) (v i)) r := by
  unfold k0_pay6 k0_pay2
  rw [shapeCast_self]
  exact pay_sum acc (mulf v v) r
theorem pay7_apply (acc : FVec Ideal S8 .f32) (v : Vec Ideal S8x64x512 .f32) (r : Fin 8) :
    k0_pay7 (F := Ideal) acc v (ix1 r) = acc (ix1 r) + chunkSum (fun i => FloatOps.mulf (v i) (v i)) r := by
  unfold k0_pay7 k0_pay3
  rw [shapeCast_self]
  exact pay_sum acc (mulf v v) r
theorem pay8_apply (acc : FVec Ideal S8 .f32) (v v' : Vec Ideal S8x64x512 .f32) (r : Fin 8) :
    k0_pay8 (F := Ideal) acc v v' (ix1 r) = acc (ix1 r) + chunkSum (fun i => FloatOps.mulf (v i) (v' i)) r := by
  unfold k0_pay8 k0_pay2 k0_pay3
  rw [shapeCast_self, shapeCast_self]
  exact pay_sum acc (mulf v v') r

/-- The loop's carried vectors start at zero. -/
theorem pay1_apply (r : Fin 8) : k0_pay1 (F := Ideal) (ix1 r) = 0 := by
  unfold k0_pay1
  show Ideal.ofBits .f32 0x00000000#32 = 0
  exact Ideal.ofBits_zero_f32

/-- Trip `k`'s load of either input block reads its rows 64k .. 64k+63. -/
theorem chunk_apply (arg : Memref sig .tc .vmem S8x512x512 .f32) (harg : arg.IsWhole) (x : Vec Ideal S8x512x512 .f32)
    (k : Fin k0_t1_loop.trips) (r : Fin 8) (h : Fin 64) (w : Fin 512) (hk : 64 * k.val + h.val < 512) :
    View.readAt (Elt Ideal) arg.view (Rect.unit (s := S8x512x512) (k0_off1 k) S8x64x512.size (k0_off1_inb k)).toLoadRect (harg.unread x) (ix3 r h w)
      = x (ix3 r ⟨64 * k.val + h.val, hk⟩ w) := by
  rw [View.readAt_eq_ld, harg.read_unread]
  show x _ = x _
  refine congrArg x (funext fun a => Fin.ext ?_)
  have e := k0_off1_eq k
  match a with
  | ⟨0, _⟩ => show k0_off1 k 0 + 1 * r.val = r.val; rw [e]; show 0 + 1 * r.val = r.val; omega
  | ⟨1, _⟩ => show k0_off1 k 1 + 1 * h.val = 64 * k.val + h.val; rw [e]; show 64 * k.val + 1 * h.val = _; omega
  | ⟨2, _⟩ => show k0_off1 k 2 + 1 * w.val = w.val; rw [e]; show 0 + 1 * w.val = w.val; omega

/-! ## One trip, and the eight trips -/

/-- The loop runs eight trips. -/
theorem trips_eq : k0_t1_loop.trips = 8 := by decide

/-- What trip `k` loads from an input block held at `x`. -/
abbrev chunkOf (arg : Memref sig .tc .vmem S8x512x512 .f32) (harg : arg.IsWhole) (x : Vec Ideal S8x512x512 .f32)
    (k : Fin k0_t1_loop.trips) : Vec Ideal S8x64x512 .f32 :=
  View.readAt (Elt Ideal) arg.view (Rect.unit (s := S8x512x512) (k0_off1 k) S8x64x512.size (k0_off1_inb k)).toLoadRect (harg.unread x)

/-- The sum over channel `r` of a function `f` of the two chunks trip `k` loads is the sum of `f` of the two blocks
    over rows 64k .. 64k+63 of the channel. -/
theorem chunkSum_chunkOf2 (f : Ideal .f32 → Ideal .f32 → Ideal .f32)
    (argA : Memref sig .tc .vmem S8x512x512 .f32) (hargA : argA.IsWhole) (xA : Vec Ideal S8x512x512 .f32)
    (argB : Memref sig .tc .vmem S8x512x512 .f32) (hargB : argB.IsWhole) (xB : Vec Ideal S8x512x512 .f32)
    (k : ℕ) (hk : k < 8) (r : Fin 8) :
    chunkSum (fun i => f (chunkOf argA hargA xA ⟨k, trips_eq ▸ hk⟩ i) (chunkOf argB hargB xB ⟨k, trips_eq ▸ hk⟩ i)) r
      = ∑ j : Fin 64, ∑ w : Fin 512,
          f (xA (ix3 r ⟨64 * k + j.val, Cert.LibChunkSum.chunk_lt (C := 8) (B := 64) (N := 512) rfl hk j.isLt⟩ w))
            (xB (ix3 r ⟨64 * k + j.val, Cert.LibChunkSum.chunk_lt (C := 8) (B := 64) (N := 512) rfl hk j.isLt⟩ w)) := by
  unfold chunkSum
  refine Finset.sum_congr rfl fun j _ => Finset.sum_congr rfl fun w _ => ?_
  exact congrArg₂ f (chunk_apply argA hargA xA ⟨k, trips_eq ▸ hk⟩ r j w _) (chunk_apply argB hargB xB ⟨k, trips_eq ▸ hk⟩ r j w _)

/-- The carried values before trip `n`, the input blocks held at `x0`, `x1`. -/
abbrev stN (c : Dev nD) (i : grid0.Coords) (arg1 : Memref sig .tc .vmem S8x512x512 .f32) (harg1 : arg1.IsWhole) (arg2 : Memref sig .tc .vmem S8x512x512 .f32) (harg2 : arg2.IsWhole) (arg3 : Memref sig .tc .vmem S8x128 .f32) (harg3 : arg3.IsWhole)
    (x0 x1 : Vec Ideal S8x512x512 .f32) (n : ℕ) :=
  st_k0_t1 (F := Ideal) Variants.none c none i arg1 harg1 arg2 harg2 arg3 harg3 (harg1.unread x0) (harg2.unread x1)
    (k0_pay1, k0_pay1, k0_pay1, k0_pay1, k0_pay1) n

/-- One trip: from the carried values `acc`, the five accumulate payloads over the trip's two chunks (the trip's
    definition opened once; everything after cites this). -/
theorem trip_eq (c : Dev nD) (i : grid0.Coords) (arg1 : Memref sig .tc .vmem S8x512x512 .f32) (harg1 : arg1.IsWhole) (arg2 : Memref sig .tc .vmem S8x512x512 .f32) (harg2 : arg2.IsWhole) (arg3 : Memref sig .tc .vmem S8x128 .f32) (harg3 : arg3.IsWhole)
    (x0 x1 : Vec Ideal S8x512x512 .f32) (k : Fin k0_t1_loop.trips)
    (acc : FVec Ideal S8 .f32 × FVec Ideal S8 .f32 × FVec Ideal S8 .f32 × FVec Ideal S8 .f32 × FVec Ideal S8 .f32) :
    tripR_k0_t1 (F := Ideal) Variants.none c none i arg1 harg1 arg2 harg2 arg3 harg3 (harg1.unread x0) (harg2.unread x1) k acc
      = (k0_pay4 acc.1 (chunkOf arg1 harg1 x0 k), k0_pay5 acc.2.1 (chunkOf arg2 harg2 x1 k),
          k0_pay6 acc.2.2.1 (chunkOf arg1 harg1 x0 k), k0_pay7 acc.2.2.2.1 (chunkOf arg2 harg2 x1 k),
          k0_pay8 acc.2.2.2.2 (chunkOf arg1 harg1 x0 k) (chunkOf arg2 harg2 x1 k)) := by
  unfold tripR_k0_t1 trip_k0_t1
  rfl

theorem stN_succ (c : Dev nD) (i : grid0.Coords) (arg1 : Memref sig .tc .vmem S8x512x512 .f32) (harg1 : arg1.IsWhole) (arg2 : Memref sig .tc .vmem S8x512x512 .f32) (harg2 : arg2.IsWhole) (arg3 : Memref sig .tc .vmem S8x128 .f32) (harg3 : arg3.IsWhole)
    (x0 x1 : Vec Ideal S8x512x512 .f32) (k : ℕ) (hk : k < 8) :
    stN c i arg1 harg1 arg2 harg2 arg3 harg3 x0 x1 (k + 1)
      = (k0_pay4 (stN c i arg1 harg1 arg2 harg2 arg3 harg3 x0 x1 k).1 (chunkOf arg1 harg1 x0 ⟨k, trips_eq ▸ hk⟩),
          k0_pay5 (stN c i arg1 harg1 arg2 harg2 arg3 harg3 x0 x1 k).2.1 (chunkOf arg2 harg2 x1 ⟨k, trips_eq ▸ hk⟩),
          k0_pay6 (stN c i arg1 harg1 arg2 harg2 arg3 harg3 x0 x1 k).2.2.1 (chunkOf arg1 harg1 x0 ⟨k, trips_eq ▸ hk⟩),
          k0_pay7 (stN c i arg1 harg1 arg2 harg2 arg3 harg3 x0 x1 k).2.2.2.1 (chunkOf arg2 harg2 x1 ⟨k, trips_eq ▸ hk⟩),
          k0_pay8 (stN c i arg1 harg1 arg2 harg2 arg3 harg3 x0 x1 k).2.2.2.2 (chunkOf arg1 harg1 x0 ⟨k, trips_eq ▸ hk⟩) (chunkOf arg2 harg2 x1 ⟨k, trips_eq ▸ hk⟩)) :=
  (st_k0_t1_succ (F := Ideal) Variants.none c none i arg1 harg1 arg2 harg2 arg3 harg3 (harg1.unread x0) (harg2.unread x1) _ ⟨k, trips_eq ▸ hk⟩).trans
    (trip_eq c i arg1 harg1 arg2 harg2 arg3 harg3 x0 x1 ⟨k, trips_eq ▸ hk⟩ _)

/-- The sum over the 512 x 512 positions of channel `r` of a block-shaped vector. -/
def blockSum (u : FVec Ideal S8x512x512 .f32) (r : Fin 8) : EReal := ∑ h : Fin 512, ∑ w : Fin 512, u (ix3 r h w)

/-- After the eight trips, component `.1` of the carried values at channel `r` is the channel's whole sum. -/
theorem loop_sumX (c : Dev nD) (i : grid0.Coords) (arg1 : Memref sig .tc .vmem S8x512x512 .f32) (harg1 : arg1.IsWhole) (arg2 : Memref sig .tc .vmem S8x512x512 .f32) (harg2 : arg2.IsWhole) (arg3 : Memref sig .tc .vmem S8x128 .f32) (harg3 : arg3.IsWhole)
    (x0 x1 : Vec Ideal S8x512x512 .f32) (r : Fin 8) :
    (stN c i arg1 harg1 arg2 harg2 arg3 harg3 x0 x1 8).1 (ix1 r) = blockSum (fun i => x0 i) r := by
  refine Cert.LibChunkSum.sum_by_chunks 8 64 512 rfl (fun h : Fin 512 => ∑ w : Fin 512, (fun i => x0 i) (ix3 r h w))
    (fun n => (stN c i arg1 harg1 arg2 harg2 arg3 harg3 x0 x1 n).1 (ix1 r)) (pay1_apply r) fun k hk => ?_
  show (stN c i arg1 harg1 arg2 harg2 arg3 harg3 x0 x1 (k + 1)).1 (ix1 r) = _
  rw [stN_succ c i arg1 harg1 arg2 harg2 arg3 harg3 x0 x1 k hk]
  show k0_pay4 _ _ (ix1 r) = _
  rw [pay4_apply]
  refine congrArg (_ + ·) ?_
  exact chunkSum_chunkOf2 (fun a _ => a) arg1 harg1 x0 arg1 harg1 x0 k hk r

/-- After the eight trips, component `.2.1` of the carried values at channel `r` is the channel's whole sum. -/
theorem loop_sumY (c : Dev nD) (i : grid0.Coords) (arg1 : Memref sig .tc .vmem S8x512x512 .f32) (harg1 : arg1.IsWhole) (arg2 : Memref sig .tc .vmem S8x512x512 .f32) (harg2 : arg2.IsWhole) (arg3 : Memref sig .tc .vmem S8x128 .f32) (harg3 : arg3.IsWhole)
    (x0 x1 : Vec Ideal S8x512x512 .f32) (r : Fin 8) :
    (stN c i arg1 harg1 arg2 harg2 arg3 harg3 x0 x1 8).2.1 (ix1 r) = blockSum (fun i => x1 i) r := by
  refine Cert.LibChunkSum.sum_by_chunks 8 64 512 rfl (fun h : Fin 512 => ∑ w : Fin 512, (fun i => x1 i) (ix3 r h w))
    (fun n => (stN c i arg1 harg1 arg2 harg2 arg3 harg3 x0 x1 n).2.1 (ix1 r)) (pay1_apply r) fun k hk => ?_
  show (stN c i arg1 harg1 arg2 harg2 arg3 harg3 x0 x1 (k + 1)).2.1 (ix1 r) = _
  rw [stN_succ c i arg1 harg1 arg2 harg2 arg3 harg3 x0 x1 k hk]
  show k0_pay5 _ _ (ix1 r) = _
  rw [pay5_apply]
  refine congrArg (_ + ·) ?_
  exact chunkSum_chunkOf2 (fun a _ => a) arg2 harg2 x1 arg2 harg2 x1 k hk r

/-- After the eight trips, component `.2.2.1` of the carried values at channel `r` is the channel's whole sum. -/
theorem loop_sumXX (c : Dev nD) (i : grid0.Coords) (arg1 : Memref sig .tc .vmem S8x512x512 .f32) (harg1 : arg1.IsWhole) (arg2 : Memref sig .tc .vmem S8x512x512 .f32) (harg2 : arg2.IsWhole) (arg3 : Memref sig .tc .vmem S8x128 .f32) (harg3 : arg3.IsWhole)
    (x0 x1 : Vec Ideal S8x512x512 .f32) (r : Fin 8) :
    (stN c i arg1 harg1 arg2 harg2 arg3 harg3 x0 x1 8).2.2.1 (ix1 r) = blockSum (fun i => FloatOps.mulf (x0 i) (x0 i)) r := by
  refine Cert.LibChunkSum.sum_by_chunks 8 64 512 rfl (fun h : Fin 512 => ∑ w : Fin 512, (fun i => FloatOps.mulf (x0 i) (x0 i)) (ix3 r h w))
    (fun n => (stN c i arg1 harg1 arg2 harg2 arg3 harg3 x0 x1 n).2.2.1 (ix1 r)) (pay1_apply r) fun k hk => ?_
  show (stN c i arg1 harg1 arg2 harg2 arg3 harg3 x0 x1 (k + 1)).2.2.1 (ix1 r) = _
  rw [stN_succ c i arg1 harg1 arg2 harg2 arg3 harg3 x0 x1 k hk]
  show k0_pay6 _ _ (ix1 r) = _
  rw [pay6_apply]
  refine congrArg (_ + ·) ?_
  exact chunkSum_chunkOf2 FloatOps.mulf arg1 harg1 x0 arg1 harg1 x0 k hk r

/-- After the eight trips, component `.2.2.2.1` of the carried values at channel `r` is the channel's whole sum. -/
theorem loop_sumYY (c : Dev nD) (i : grid0.Coords) (arg1 : Memref sig .tc .vmem S8x512x512 .f32) (harg1 : arg1.IsWhole) (arg2 : Memref sig .tc .vmem S8x512x512 .f32) (harg2 : arg2.IsWhole) (arg3 : Memref sig .tc .vmem S8x128 .f32) (harg3 : arg3.IsWhole)
    (x0 x1 : Vec Ideal S8x512x512 .f32) (r : Fin 8) :
    (stN c i arg1 harg1 arg2 harg2 arg3 harg3 x0 x1 8).2.2.2.1 (ix1 r) = blockSum (fun i => FloatOps.mulf (x1 i) (x1 i)) r := by
  refine Cert.LibChunkSum.sum_by_chunks 8 64 512 rfl (fun h : Fin 512 => ∑ w : Fin 512, (fun i => FloatOps.mulf (x1 i) (x1 i)) (ix3 r h w))
    (fun n => (stN c i arg1 harg1 arg2 harg2 arg3 harg3 x0 x1 n).2.2.2.1 (ix1 r)) (pay1_apply r) fun k hk => ?_
  show (stN c i arg1 harg1 arg2 harg2 arg3 harg3 x0 x1 (k + 1)).2.2.2.1 (ix1 r) = _
  rw [stN_succ c i arg1 harg1 arg2 harg2 arg3 harg3 x0 x1 k hk]
  show k0_pay7 _ _ (ix1 r) = _
  rw [pay7_apply]
  refine congrArg (_ + ·) ?_
  exact chunkSum_chunkOf2 FloatOps.mulf arg2 harg2 x1 arg2 harg2 x1 k hk r

/-- After the eight trips, component `.2.2.2.2` of the carried values at channel `r` is the channel's whole sum. -/
theorem loop_sumXY (c : Dev nD) (i : grid0.Coords) (arg1 : Memref sig .tc .vmem S8x512x512 .f32) (harg1 : arg1.IsWhole) (arg2 : Memref sig .tc .vmem S8x512x512 .f32) (harg2 : arg2.IsWhole) (arg3 : Memref sig .tc .vmem S8x128 .f32) (harg3 : arg3.IsWhole)
    (x0 x1 : Vec Ideal S8x512x512 .f32) (r : Fin 8) :
    (stN c i arg1 harg1 arg2 harg2 arg3 harg3 x0 x1 8).2.2.2.2 (ix1 r) = blockSum (fun i => FloatOps.mulf (x0 i) (x1 i)) r := by
  refine Cert.LibChunkSum.sum_by_chunks 8 64 512 rfl (fun h : Fin 512 => ∑ w : Fin 512, (fun i => FloatOps.mulf (x0 i) (x1 i)) (ix3 r h w))
    (fun n => (stN c i arg1 harg1 arg2 harg2 arg3 harg3 x0 x1 n).2.2.2.2 (ix1 r)) (pay1_apply r) fun k hk => ?_
  show (stN c i arg1 harg1 arg2 harg2 arg3 harg3 x0 x1 (k + 1)).2.2.2.2 (ix1 r) = _
  rw [stN_succ c i arg1 harg1 arg2 harg2 arg3 harg3 x0 x1 k hk]
  show k0_pay8 _ _ _ (ix1 r) = _
  rw [pay8_apply]
  refine congrArg (_ + ·) ?_
  exact chunkSum_chunkOf2 FloatOps.mulf arg1 harg1 x0 arg2 harg2 x1 k hk r

/-! ## The stored block -/

/-- A channel vector cast to a column, read at (r, 0), is the vector at r. -/
theorem cast_col (a : FVec Ideal S8 .f32) (r : Fin 8) :
    shapeCast S8x1 a shapeCasts_S8_S8x1 (ix2 r (0 : Fin 1)) = a (ix1 r) := by
  refine shapeCast_apply a shapeCasts_S8_S8x1 (ix2 r 0) (ix1 r) ?_
  rw [Shape.rowMajor_val_one, Shape.rowMajor_val_two]
  show r.val = r.val * 1 + 0
  omega

/-- The six pieces the body concatenates along the columns: the five carried vectors as columns, then 123 zero columns. -/
abbrev catList (a0 a1 a2 a3 a4 : FVec Ideal S8 .f32) : List ((s : Shape) × (s.Idx → Ideal .f32)) :=
  [⟨S8x1, shapeCast S8x1 a0 shapeCasts_S8_S8x1⟩, ⟨S8x1, shapeCast S8x1 a1 shapeCasts_S8_S8x1⟩,
   ⟨S8x1, shapeCast S8x1 a2 shapeCasts_S8_S8x1⟩, ⟨S8x1, shapeCast S8x1 a3 shapeCasts_S8_S8x1⟩,
   ⟨S8x1, shapeCast S8x1 a4 shapeCasts_S8_S8x1⟩,
   ⟨S8x123, broadcast S8x123 (Scalar.ofBits (F := Ideal) .f32 0x00000000#32)⟩]

/-- Column 0 of the stored block is carried vector 0. -/
theorem pay9_col0 (a0 a1 a2 a3 a4 : FVec Ideal S8 .f32) (r : Fin 8) :
    k0_pay9 (F := Ideal) a0 a1 a2 a3 a4 (ix2 r (⟨0, by decide⟩ : Fin 128)) = a0 (ix1 r) := by
  unfold k0_pay9
  refine Eq.trans (concatenate_apply_piece (1 : Fin 2) (t := S8x128) (catList a0 a1 a2 a3 a4) (show Shape.Concatenates ((catList a0 a1 a2 a3 a4).map (·.1)) S8x128 1 from concatenates_S8x1_S8x1_S8x1_S8x1_S8x1_S8x123_S8x128_d1)
    (ix2 r (⟨0, by decide⟩ : Fin 128)) 0 (by show (0 : ℕ) < 6; decide) S8x1 _ rfl rfl 0 rfl (ix2 r (0 : Fin 1)) (fun b hb => ?_) rfl) (cast_col a0 r)
  match b with
  | ⟨0, _⟩ => rfl
  | ⟨1, _⟩ => exact absurd rfl hb

/-- Column 1 of the stored block is carried vector 1. -/
theorem pay9_col1 (a0 a1 a2 a3 a4 : FVec Ideal S8 .f32) (r : Fin 8) :
    k0_pay9 (F := Ideal) a0 a1 a2 a3 a4 (ix2 r (⟨1, by decide⟩ : Fin 128)) = a1 (ix1 r) := by
  unfold k0_pay9
  refine Eq.trans (concatenate_apply_piece (1 : Fin 2) (t := S8x128) (catList a0 a1 a2 a3 a4) (show Shape.Concatenates ((catList a0 a1 a2 a3 a4).map (·.1)) S8x128 1 from concatenates_S8x1_S8x1_S8x1_S8x1_S8x1_S8x123_S8x128_d1)
    (ix2 r (⟨1, by decide⟩ : Fin 128)) 1 (by show (1 : ℕ) < 6; decide) S8x1 _ rfl rfl 1 rfl (ix2 r (0 : Fin 1)) (fun b hb => ?_) rfl) (cast_col a1 r)
  match b with
  | ⟨0, _⟩ => rfl
  | ⟨1, _⟩ => exact absurd rfl hb

/-- Column 2 of the stored block is carried vector 2. -/
theorem pay9_col2 (a0 a1 a2 a3 a4 : FVec Ideal S8 .f32) (r : Fin 8) :
    k0_pay9 (F := Ideal) a0 a1 a2 a3 a4 (ix2 r (⟨2, by decide⟩ : Fin 128)) = a2 (ix1 r) := by
  unfold k0_pay9
  refine Eq.trans (concatenate_apply_piece (1 : Fin 2) (t := S8x128) (catList a0 a1 a2 a3 a4) (show Shape.Concatenates ((catList a0 a1 a2 a3 a4).map (·.1)) S8x128 1 from concatenates_S8x1_S8x1_S8x1_S8x1_S8x1_S8x123_S8x128_d1)
    (ix2 r (⟨2, by decide⟩ : Fin 128)) 2 (by show (2 : ℕ) < 6; decide) S8x1 _ rfl rfl 2 rfl (ix2 r (0 : Fin 1)) (fun b hb => ?_) rfl) (cast_col a2 r)
  match b with
  | ⟨0, _⟩ => rfl
  | ⟨1, _⟩ => exact absurd rfl hb

/-- Column 3 of the stored block is carried vector 3. -/
theorem pay9_col3 (a0 a1 a2 a3 a4 : FVec Ideal S8 .f32) (r : Fin 8) :
    k0_pay9 (F := Ideal) a0 a1 a2 a3 a4 (ix2 r (⟨3, by decide⟩ : Fin 128)) = a3 (ix1 r) := by
  unfold k0_pay9
  refine Eq.trans (concatenate_apply_piece (1 : Fin 2) (t := S8x128) (catList a0 a1 a2 a3 a4) (show Shape.Concatenates ((catList a0 a1 a2 a3 a4).map (·.1)) S8x128 1 from concatenates_S8x1_S8x1_S8x1_S8x1_S8x1_S8x123_S8x128_d1)
    (ix2 r (⟨3, by decide⟩ : Fin 128)) 3 (by show (3 : ℕ) < 6; decide) S8x1 _ rfl rfl 3 rfl (ix2 r (0 : Fin 1)) (fun b hb => ?_) rfl) (cast_col a3 r)
  match b with
  | ⟨0, _⟩ => rfl
  | ⟨1, _⟩ => exact absurd rfl hb

/-- Column 4 of the stored block is carried vector 4. -/
theorem pay9_col4 (a0 a1 a2 a3 a4 : FVec Ideal S8 .f32) (r : Fin 8) :
    k0_pay9 (F := Ideal) a0 a1 a2 a3 a4 (ix2 r (⟨4, by decide⟩ : Fin 128)) = a4 (ix1 r) := by
  unfold k0_pay9
  refine Eq.trans (concatenate_apply_piece (1 : Fin 2) (t := S8x128) (catList a0 a1 a2 a3 a4) (show Shape.Concatenates ((catList a0 a1 a2 a3 a4).map (·.1)) S8x128 1 from concatenates_S8x1_S8x1_S8x1_S8x1_S8x1_S8x123_S8x128_d1)
    (ix2 r (⟨4, by decide⟩ : Fin 128)) 4 (by show (4 : ℕ) < 6; decide) S8x1 _ rfl rfl 4 rfl (ix2 r (0 : Fin 1)) (fun b hb => ?_) rfl) (cast_col a4 r)
  match b with
  | ⟨0, _⟩ => rfl
  | ⟨1, _⟩ => exact absurd rfl hb

/-- The other 123 columns are the zero literal. -/
theorem pay9_rest (a0 a1 a2 a3 a4 : FVec Ideal S8 .f32) (r : Fin 8) (q : Fin 128) (hq : 5 ≤ q.val) :
    k0_pay9 (F := Ideal) a0 a1 a2 a3 a4 (ix2 r q) = FloatOps.ofBits .f32 0x00000000#32 := by
  unfold k0_pay9
  refine concatenate_apply_piece (1 : Fin 2) (t := S8x128) (catList a0 a1 a2 a3 a4) (show Shape.Concatenates ((catList a0 a1 a2 a3 a4).map (·.1)) S8x128 1 from concatenates_S8x1_S8x1_S8x1_S8x1_S8x1_S8x123_S8x128_d1) (ix2 r q) 5 (by show (5 : ℕ) < 6; decide) S8x123 _ rfl rfl 5 rfl
    (ix2 r (⟨q.val - 5, by have := q.isLt; omega⟩ : Fin 123))
    (fun b hb => ?_) (by show 5 + (q.val - 5) = q.val; omega)
  match b with
  | ⟨0, _⟩ => rfl
  | ⟨1, _⟩ => exact absurd rfl hb

/-! ## What the body leaves in the output's staging buffer -/

/-- The stored piece read back is the stored payload: the concatenation over the carried values after the loop. -/
theorem out0_2_eq (c : Dev nD) (i : grid0.Coords) (arg1 : Memref sig .tc .vmem S8x512x512 .f32) (harg1 : arg1.IsWhole) (arg2 : Memref sig .tc .vmem S8x512x512 .f32) (harg2 : arg2.IsWhole) (arg3 : Memref sig .tc .vmem S8x128 .f32) (harg3 : arg3.IsWhole)
    (x0 x1 : Vec Ideal S8x512x512 .f32) :
    out0_2 (F := Ideal) c i arg1 harg1 arg2 harg2 arg3 harg3 x0 x1
      = k0_pay9 (stN c i arg1 harg1 arg2 harg2 arg3 harg3 x0 x1 k0_t1_loop.trips).1 (stN c i arg1 harg1 arg2 harg2 arg3 harg3 x0 x1 k0_t1_loop.trips).2.1
          (stN c i arg1 harg1 arg2 harg2 arg3 harg3 x0 x1 k0_t1_loop.trips).2.2.1 (stN c i arg1 harg1 arg2 harg2 arg3 harg3 x0 x1 k0_t1_loop.trips).2.2.2.1
          (stN c i arg1 harg1 arg2 harg2 arg3 harg3 x0 x1 k0_t1_loop.trips).2.2.2.2 := by
  unfold out0_2
  rw [View.read_writes_eq_canon _ _ _ (cover0_2 c i arg1 harg1 arg2 harg2 arg3 harg3 x0 x1)]
  unfold kernelRun0
  dsimp only
  exact View.canon_unit_zero (funext fun a => match a with | ⟨0, _⟩ => rfl | ⟨1, _⟩ => rfl) _ _

end Cert.KernelIdeal.Hand

end
-- ==== Proof.IdealArray.lean ====
/-
  The 96 x 128 array of per-channel sums after the region, at the extended reals.

  The pipeline's two input arrays are the argument images reshaped to 96 x 512 x 512: row 3b + c is channel
  (b, c) (`V_main_v0_apply`, `V_main_v1_apply`). Grid point t stages rows 8t .. 8t+7 of both (`iblk0_apply`,
  `iblk1_apply`), and what the body leaves there is, in row r, columns 0..4, the sums over the channel's
  512 x 512 positions of x, y, x*x, y*y, x*y for row 8t + r, and zero in the other columns (`block_eq`): block t
  of ONE function of the two arrays, `statsFn`. The twelve blocks cover the array (`cover2`), so after the region
  the array is `statsFn` of the two reshaped images (`final2`).
-/
import proofs.«137015_j20375324852448_2_alg».proof.Proof.IdealPayload

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The statistics function -/

/-- The sum over the 512 x 512 positions of row `bc` of `f` of two 96 x 512 x 512 arrays. -/
def rowSum2 (f : Ideal .f32 → Ideal .f32 → Ideal .f32) (A B : FVec Ideal S96x512x512 .f32) (bc : Fin 96) : Ideal .f32 :=
  ∑ h : Fin 512, ∑ w : Fin 512, f (A (ix3 bc h w)) (B (ix3 bc h w))

/-- Row `bc`, column `q` of the statistics: the five sums in columns 0..4, the zero literal elsewhere. -/
def statsAt (A0 A1 : FVec Ideal S96x512x512 .f32) (bc : Fin 96) (q : ℕ) : Ideal .f32 :=
  if q = 0 then rowSum2 (fun a _ => a) A0 A0 bc
  else if q = 1 then rowSum2 (fun a _ => a) A1 A1 bc
  else if q = 2 then rowSum2 FloatOps.mulf A0 A0 bc
  else if q = 3 then rowSum2 FloatOps.mulf A1 A1 bc
  else if q = 4 then rowSum2 FloatOps.mulf A0 A1 bc
  else FloatOps.ofBits .f32 0x00000000#32

/-- The whole 96 x 128 array of statistics. -/
def statsFn (A0 A1 : FVec Ideal S96x512x512 .f32) : FVec Ideal S96x128 .f32 := fun i =>
  statsAt A0 A1 ⟨(i 0).val, (i 0).isLt⟩ (i 1).val

/-! ## The windows' blocks at an index -/

/-- The printed index maps over the grid: every window's block index is the point along the leading axis, zero elsewhere. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0 :=
  (by decide +kernel : ∀ t : Fin grid0.N, _)

theorem row_lt (t : Fin cfg0.N) (r : ℕ) (hr : r < 8) : 8 * t.val + r < 96 := by
  have hN : cfg0.N = 12 := N_0
  have := t.isLt
  omega

/-- Input window 0's block at point `t` is rows 8t .. 8t+7 of its array. -/
theorem iblk0_apply (c : Dev nD) (t : Fin cfg0.N) (r : Fin 8) (h w : Fin 512) :
    (iblk m c 0 t : Vec Ideal S8x512x512 .f32) (ix3 r h w)
      = (V m c main_v0 : S96x512x512.Idx → Ideal .f32) (ix3 ⟨8 * t.val + r.val, row_lt t r.val r.isLt⟩ h w) := by
  obtain ⟨e0, e1, e2, -⟩ := idx_facts t
  unfold iblk
  rw [View.read_apply]
  show V m c main_v0 _ = V m c main_v0 _
  refine congrArg _ (funext fun a => Fin.ext ?_)
  match a with
  | ⟨0, _⟩ => show win0_0.index t (0 : Fin 3) * 8 + 1 * r.val = 8 * t.val + r.val; rw [e0]; omega
  | ⟨1, _⟩ => show win0_0.index t (1 : Fin 3) * 512 + 1 * h.val = h.val; rw [e1]; omega
  | ⟨2, _⟩ => show win0_0.index t (2 : Fin 3) * 512 + 1 * w.val = w.val; rw [e2]; omega

/-- The same for input window 1. -/
theorem iblk1_apply (c : Dev nD) (t : Fin cfg0.N) (r : Fin 8) (h w : Fin 512) :
    (iblk m c 1 t : Vec Ideal S8x512x512 .f32) (ix3 r h w)
      = (V m c main_v1 : S96x512x512.Idx → Ideal .f32) (ix3 ⟨8 * t.val + r.val, row_lt t r.val r.isLt⟩ h w) := by
  obtain ⟨-, -, -, e0, e1, e2, -⟩ := idx_facts t
  unfold iblk
  rw [View.read_apply]
  show V m c main_v1 _ = V m c main_v1 _
  refine congrArg _ (funext fun a => Fin.ext ?_)
  match a with
  | ⟨0, _⟩ => show win0_1.index t (0 : Fin 3) * 8 + 1 * r.val = 8 * t.val + r.val; rw [e0]; omega
  | ⟨1, _⟩ => show win0_1.index t (1 : Fin 3) * 512 + 1 * h.val = h.val; rw [e1]; omega
  | ⟨2, _⟩ => show win0_1.index t (2 : Fin 3) * 512 + 1 * w.val = w.val; rw [e2]; omega

/-- The sum over channel `r` of `f` of two block-shaped vectors. -/
def blockSum2 (f : Ideal .f32 → Ideal .f32 → Ideal .f32) (u v : Vec Ideal S8x512x512 .f32) (r : Fin 8) : Ideal .f32 :=
  ∑ h : Fin 512, ∑ w : Fin 512, f (u (ix3 r h w)) (v (ix3 r h w))

/-- If the two blocks are rows of two arrays, the block sum is the row sum. -/
theorem blockSum2_eq_rowSum2 (f : Ideal .f32 → Ideal .f32 → Ideal .f32) (u v : Vec Ideal S8x512x512 .f32)
    (A B : FVec Ideal S96x512x512 .f32) (bc : Fin 96) (r : Fin 8)
    (hu : ∀ h w : Fin 512, u (ix3 r h w) = A (ix3 bc h w)) (hv : ∀ h w : Fin 512, v (ix3 r h w) = B (ix3 bc h w)) :
    blockSum2 f u v r = rowSum2 f A B bc := by
  unfold blockSum2 rowSum2
  exact Finset.sum_congr rfl fun h _ => Finset.sum_congr rfl fun w _ => congrArg₂ f (hu h w) (hv h w)

/-- Row `r`, column `q` of what the body leaves, the input memrefs held at `x0`, `x1`. -/
def outAt (x0 x1 : Vec Ideal S8x512x512 .f32) (r : Fin 8) (q : ℕ) : Ideal .f32 :=
  if q = 0 then blockSum2 (fun a _ => a) x0 x0 r
  else if q = 1 then blockSum2 (fun a _ => a) x1 x1 r
  else if q = 2 then blockSum2 FloatOps.mulf x0 x0 r
  else if q = 3 then blockSum2 FloatOps.mulf x1 x1 r
  else if q = 4 then blockSum2 FloatOps.mulf x0 x1 r
  else FloatOps.ofBits .f32 0x00000000#32

/-- What the body leaves in the output's staging buffer, entry by entry. -/
theorem out_at (c : Dev nD) (i : grid0.Coords) (arg1 : Memref sig .tc .vmem S8x512x512 .f32) (harg1 : arg1.IsWhole) (arg2 : Memref sig .tc .vmem S8x512x512 .f32) (harg2 : arg2.IsWhole) (arg3 : Memref sig .tc .vmem S8x128 .f32) (harg3 : arg3.IsWhole)
    (x0 x1 : Vec Ideal S8x512x512 .f32) (r : Fin 8) (q : Fin 128) :
    out0_2 (F := Ideal) c i arg1 harg1 arg2 harg2 arg3 harg3 x0 x1 (ix2 r q) = outAt x0 x1 r q.val := by
  rw [out0_2_eq, trips_eq]
  unfold outAt
  match q with
  | ⟨0, _⟩ => rw [pay9_col0, loop_sumX, if_pos rfl]; rfl
  | ⟨1, _⟩ => rw [pay9_col1, loop_sumY, if_neg (show ¬((1 : ℕ) = 0) by decide), if_pos rfl]; rfl
  | ⟨2, _⟩ => rw [pay9_col2, loop_sumXX, if_neg (show ¬((2 : ℕ) = 0) by decide), if_neg (show ¬((2 : ℕ) = 1) by decide), if_pos rfl]; rfl
  | ⟨3, _⟩ => rw [pay9_col3, loop_sumYY, if_neg (show ¬((3 : ℕ) = 0) by decide), if_neg (show ¬((3 : ℕ) = 1) by decide), if_neg (show ¬((3 : ℕ) = 2) by decide), if_pos rfl]; rfl
  | ⟨4, _⟩ => rw [pay9_col4, loop_sumXY, if_neg (show ¬((4 : ℕ) = 0) by decide), if_neg (show ¬((4 : ℕ) = 1) by decide), if_neg (show ¬((4 : ℕ) = 2) by decide), if_neg (show ¬((4 : ℕ) = 3) by decide), if_pos rfl]; rfl
  | ⟨n + 5, hn⟩ =>
    rw [pay9_rest _ _ _ _ _ r ⟨n + 5, hn⟩ (Nat.le_add_left 5 n), if_neg (show ¬(n + 5 = 0) by omega), if_neg (show ¬(n + 5 = 1) by omega), if_neg (show ¬(n + 5 = 2) by omega), if_neg (show ¬(n + 5 = 3) by omega), if_neg (show ¬(n + 5 = 4) by omega)]

/-- AT GRID POINT `t` the body leaves block `t` of the statistics of the two arrays. -/
theorem block_eq (c : Dev nD) (t : Fin cfg0.N) (y : S8x128.Idx) :
    out0_2 (F := Ideal) c (grid0.coords t) (ms0_0 t) (hs0_0 t) (ms0_1 t) (hs0_1 t) (ms0_2 t) (hs0_2 t) (iblk m c 0 t) (iblk m c 1 t) y
      = statsAt (V m c main_v0) (V m c main_v1) ⟨8 * t.val + (y 0).val, row_lt t (y 0).val (y 0).isLt⟩ (y 1).val := by
  obtain ⟨r, q, rfl⟩ : ∃ (r : Fin 8) (q : Fin 128), y = ix2 r q := ⟨y 0, y 1, eq_ix2 y⟩
  refine (out_at c (grid0.coords t) (ms0_0 t) (hs0_0 t) (ms0_1 t) (hs0_1 t) (ms0_2 t) (hs0_2 t) (iblk m c 0 t) (iblk m c 1 t) r q).trans ?_
  show outAt (iblk m c 0 t) (iblk m c 1 t) r q.val = statsAt (V m c main_v0) (V m c main_v1) ⟨8 * t.val + r.val, row_lt t r.val r.isLt⟩ q.val
  have e00 := fun f => blockSum2_eq_rowSum2 f (iblk m c 0 t) (iblk m c 0 t) (V m c main_v0) (V m c main_v0)
    ⟨8 * t.val + r.val, row_lt t r.val r.isLt⟩ r (iblk0_apply m c t r) (iblk0_apply m c t r)
  have e11 := fun f => blockSum2_eq_rowSum2 f (iblk m c 1 t) (iblk m c 1 t) (V m c main_v1) (V m c main_v1)
    ⟨8 * t.val + r.val, row_lt t r.val r.isLt⟩ r (iblk1_apply m c t r) (iblk1_apply m c t r)
  have e01 := fun f => blockSum2_eq_rowSum2 f (iblk m c 0 t) (iblk m c 1 t) (V m c main_v0) (V m c main_v1)
    ⟨8 * t.val + r.val, row_lt t r.val r.isLt⟩ r (iblk0_apply m c t r) (iblk1_apply m c t r)
  unfold outAt statsAt
  rw [e00, e00, e11, e11, e01]

/-! ## From blocks to the array -/

/-- WHAT POINT `t` WRITES BACK is block `t` of the statistics of the two arrays as the region finds them. -/
theorem flushed_eq (c : Dev nD) (t : Fin cfg0.N) :
    (dats m 0 c).flushed 2 t = ((cfg0.win 2).blk t).view.read (Elt Ideal) (statsFn (V m c main_v0) (V m c main_v1)) := by
  show (cfg0.win 2).cut (grid0.coords t) ((dats m 0 c).after 2 t) = _
  rw [after0_2]
  obtain ⟨-, -, -, -, -, -, e6, e7⟩ := idx_facts t
  funext j
  refine (block_eq m c t j).trans ?_
  show _ = statsFn (V m c main_v0) (V m c main_v1) (((cfg0.win 2).blk t).view.emb j)
  unfold statsFn
  have h0 : ((((cfg0.win 2).blk t).view.emb j) 0).val = 8 * t.val + (j 0).val := by
    show win0_2.index t (0 : Fin 2) * 8 + 1 * (j 0).val = _; rw [e6]; omega
  have h1 : ((((cfg0.win 2).blk t).view.emb j) 1).val = (j 1).val := by
    show win0_2.index t (1 : Fin 2) * 128 + 1 * (j 1).val = _; rw [e7]; omega
  rw [h1]
  exact congrArg (fun bc => statsAt (V m c main_v0) (V m c main_v1) bc (j 1).val) (Fin.ext h0.symm)

/-- An index of the array is in point `t`'s block iff each coordinate is in the block's range on its axis. -/
theorem mem_blk2 (t : Fin cfg0.N) (i : S96x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v2).slice (win0_2.rect t)).set ↔ _
  rw [View.set_slice_whole, Rect.mem_set_unit]
  exact Iff.rfl

/-- Row i of the array lies in the block of point i / 8: the twelve blocks cover the array. -/
theorem cover2 (i : S96x128.Idx) : ∃ t : Fin cfg0.N, (cfg0.win 2).flush t = true ∧ i ∈ ((cfg0.win 2).blk t).view.set := by
  have hi0 : (i 0).val < 96 := (i 0).isLt
  have hi1 : (i 1).val < 128 := (i 1).isLt
  have hN : cfg0.N = 12 := N_0
  refine ⟨⟨(i 0).val / 8, by omega⟩, flush0_2 _, ?_⟩
  obtain ⟨-, -, -, -, -, -, e6, e7⟩ := idx_facts ⟨(i 0).val / 8, by omega⟩
  rw [mem_blk2]
  intro a
  match a with
  | ⟨0, _⟩ =>
    show win0_2.index _ (0 : Fin 2) * 8 ≤ (i 0).val ∧ (i 0).val < win0_2.index _ (0 : Fin 2) * 8 + 8
    rw [e6]; show (i 0).val / 8 * 8 ≤ (i 0).val ∧ (i 0).val < (i 0).val / 8 * 8 + 8; omega
  | ⟨1, _⟩ =>
    show win0_2.index _ (1 : Fin 2) * 128 ≤ (i 1).val ∧ (i 1).val < win0_2.index _ (1 : Fin 2) * 128 + 128
    rw [e7]; omega

/-- THE ARRAY after the region: the statistics of the two 96 x 512 x 512 arrays. -/
theorem final2 (c : Dev nD) : (dats m 0 c).arrAt 2 cfg0.N = statsFn (V m c main_v0) (V m c main_v1) :=
  (dats m 0 c).arrAt_eq_of_cover 2 _ (fun t _ => flushed_eq m c t) cover2

/-! ## The two arrays are the images, reshaped -/

theorem V_main_v0_apply (c : Dev nD) (b : Fin 32) (c' : Fin 3) (h w : Fin 512) :
    (V m c main_v0 : S96x512x512.Idx → Ideal .f32) (ix3 ⟨3 * b.val + c'.val, by have := b.isLt; have := c'.isLt; omega⟩ h w)
      = (m ((c : Thread nD τ).loc main_arg0) : S32x3x512x512.Idx → Ideal .f32) (ix4 b c' h w) := by
  have e : (V m c main_v0 : S96x512x512.Idx → Ideal .f32)
      = shapeCast S96x512x512 (m ((c : Thread nD τ).loc main_arg0) : S32x3x512x512.Idx → Ideal .f32) shapeCasts_S32x3x512x512_S96x512x512 := by
    dsimp only [V, V0]
    simp only [List.flatten_cons, List.flatten_nil, List.append_nil]
    after_results
    rfl
  rw [e]
  refine shapeCast_apply (s := S32x3x512x512) (t := S96x512x512) _ _ _ _ ?_
  show ((⟨4, ![32, 3, 512, 512]⟩ : Shape).rowMajor (ix4 b c' h w)).val
    = ((⟨3, ![96, 512, 512]⟩ : Shape).rowMajor (ix3 (⟨3 * b.val + c'.val, by have := b.isLt; have := c'.isLt; omega⟩ : Fin 96) h w)).val
  rw [Shape.rowMajor_val_four, Shape.rowMajor_val_three]
  show ((b.val * 3 + c'.val) * 512 + h.val) * 512 + w.val = ((3 * b.val + c'.val) * 512 + h.val) * 512 + w.val
  omega

theorem V_main_v1_apply (c : Dev nD) (b : Fin 32) (c' : Fin 3) (h w : Fin 512) :
    (V m c main_v1 : S96x512x512.Idx → Ideal .f32) (ix3 ⟨3 * b.val + c'.val, by have := b.isLt; have := c'.isLt; omega⟩ h w)
      = (m ((c : Thread nD τ).loc main_arg1) : S32x3x512x512.Idx → Ideal .f32) (ix4 b c' h w) := by
  have e : (V m c main_v1 : S96x512x512.Idx → Ideal .f32)
      = shapeCast S96x512x512 (m ((c : Thread nD τ).loc main_arg1) : S32x3x512x512.Idx → Ideal .f32) shapeCasts_S32x3x512x512_S96x512x512 := by
    dsimp only [V, V0]
    simp only [List.flatten_cons, List.flatten_nil, List.append_nil]
    after_results
    rfl
  rw [e]
  refine shapeCast_apply (s := S32x3x512x512) (t := S96x512x512) _ _ _ _ ?_
  show ((⟨4, ![32, 3, 512, 512]⟩ : Shape).rowMajor (ix4 b c' h w)).val
    = ((⟨3, ![96, 512, 512]⟩ : Shape).rowMajor (ix3 (⟨3 * b.val + c'.val, by have := b.isLt; have := c'.isLt; omega⟩ : Fin 96) h w)).val
  rw [Shape.rowMajor_val_four, Shape.rowMajor_val_three]
  show ((b.val * 3 + c'.val) * 512 + h.val) * 512 + w.val = ((3 * b.val + c'.val) * 512 + h.val) * 512 + w.val
  omega

end Cert.KernelIdeal.Hand

end
-- ==== Proof.Spec.lean ====
/-
  The function both programs compute, stated once over the two argument images.

  An image is indexed by (batch, channel, row, column) over 32 x 3 x 512 x 512. For a channel (b, c) and a
  function f of an image index, `chanSum f (b, c)` is the sum of f over the channel's 512 x 512 positions.
  From the five channel sums  sx = sum x, sy = sum y, sxx = sum x*x, syy = sum y*y, sxy = sum x*y  the
  structural-similarity value of the channel is, with n = 512*512,
      mu1 = sx / n,  mu2 = sy / n,
      var1 = (sxx - sx*sx/n) / (n-1),  var2 = (syy - sy*sy/n) / (n-1),  cov = sxy/n - mu1*mu2,
      ((2*mu1*mu2 + C1) * (2*cov + C2)) / ((mu1*mu1 + mu2*mu2 + C1) * (var1 + var2 + C2)),
  every operation the exact one on the extended reals and the five constants the binary values of the
  programs' literals. `ssim` spells this in the order the operations are applied; `result` is the whole
  32 x 3 array.
-/
import Idealize.ShloMosaic.PureOps.Ideal
import Idealize.ShloMosaic.Lib.ValueIdx

noncomputable section

namespace Cert.Spec

open Idealize.ShloMosaic Idealize.ShloMosaic.ValueIdx

/-- The images' shape and the result's. -/
abbrev SImg : Shape := ⟨4, ![32, 3, 512, 512]⟩
abbrev SChan : Shape := ⟨2, ![32, 3]⟩

/-- The sum of `f` over the 512 x 512 positions of channel `j` = (batch, channel). -/
def chanSum (f : SImg.Idx → EReal) (j : SChan.Idx) : EReal :=
  ∑ h : Fin 512, ∑ w : Fin 512, f (ix4 (j 0) (j 1) h w)

/-- The literals: 262144 = 512*512, 262143, 2, and the two stabilising constants (binary values of 1e-4, 1e-3). -/
abbrev cN : Ideal .f32 := FloatOps.ofBits .f32 0x48800000#32
abbrev cN1 : Ideal .f32 := FloatOps.ofBits .f32 0x487FFFC0#32
abbrev cTwo : Ideal .f32 := FloatOps.ofBits .f32 0x40000000#32
abbrev cC1 : Ideal .f32 := FloatOps.ofBits .f32 0x38D1B717#32
abbrev cC2 : Ideal .f32 := FloatOps.ofBits .f32 0x3A83126F#32

/-- The channel's value from its five sums, operation by operation. -/
def ssim (sx sy sxx syy sxy : Ideal .f32) : Ideal .f32 :=
  let mu1 := FloatOps.hostDivf sx cN
  let mu2 := FloatOps.hostDivf sy cN
  let var1 := FloatOps.hostDivf (FloatOps.subf sxx (FloatOps.hostDivf (FloatOps.mulf sx sx) cN)) cN1
  let var2 := FloatOps.hostDivf (FloatOps.subf syy (FloatOps.hostDivf (FloatOps.mulf sy sy) cN)) cN1
  let cov := FloatOps.subf (FloatOps.hostDivf sxy cN) (FloatOps.mulf mu1 mu2)
  let num := FloatOps.mulf (FloatOps.addf (FloatOps.mulf (FloatOps.mulf cTwo mu1) mu2) cC1)
    (FloatOps.addf (FloatOps.mulf cTwo cov) cC2)
  let den := FloatOps.mulf (FloatOps.addf (FloatOps.addf (FloatOps.mulf mu1 mu1) (FloatOps.mulf mu2 mu2)) cC1)
    (FloatOps.addf (FloatOps.addf var1 var2) cC2)
  FloatOps.hostDivf num den

/-- The whole result: channel by channel, `ssim` of the five channel sums of the two images. -/
def result (x y : FVec Ideal SImg .f32) : FVec Ideal SChan .f32 := fun j =>
  ssim (chanSum x j) (chanSum y j) (chanSum (fun i => FloatOps.mulf (x i) (x i)) j)
    (chanSum (fun i => FloatOps.mulf (y i) (y i)) j) (chanSum (fun i => FloatOps.mulf (x i) (y i)) j)

end Cert.Spec

end
-- ==== Proof.IdealTail.lean ====
/-
  The host operations after the region, read at a channel.

  The region leaves a 96 x 128 array whose row 3*b + c holds, in its first five columns, the five sums of
  channel (b, c). The host operations keep the first five columns, view the 96 rows as 32 x 3, take each
  column k as a 32 x 3 array, and then apply the scalar formula entry by entry. Read at (b, c): column k of
  the 32 x 3 x 5 view at (b, c) sits at row-major position (3*b + c)*5 + k of the 96 x 5 array, that is at
  row 3*b + c and column k; and every later operation acts on one entry of each operand, in the order the
  scalar formula is spelled.
-/
import proofs.«137015_j20375324852448_2_alg».proof.Proof.Gen.KernelIdeal.Launch
import proofs.«137015_j20375324852448_2_alg».proof.Proof.Spec
import Idealize.ShloMosaic.Lib.Pipeline.Value
import Idealize.ShloMosaic.Lib.ValueIdx
import Idealize.ShloMosaic.Lib.StableHlo.Run

noncomputable section

namespace Cert.KernelIdeal.Tail

open Cert.KernelIdeal Cert.KernelIdeal.Gen Idealize.ShloMosaic Idealize.ShloMosaic.ValueIdx

/-- Column `k` of the region's array as a 32 x 3 array: the slice of the first five columns, the view as
    32 x 3 x 5, the slice at offset `off` = (0, 0, k) of extent one, the view as 32 x 3. -/
def stat (A : FVec Ideal S96x128 .f32) (off : Fin 3 → Nat) (h : S32x3x5.Slices off S32x3x1) : FVec Ideal S32x3 .f32 :=
  shapeCast S32x3
    (extractStridedSlice S32x3x1 off
      (shapeCast S32x3x5 (extractStridedSlice S96x5 ![0, 0] A slices_S96x128_S96x5_0_0) shapeCasts_S96x5_S32x3x5) h)
    shapeCasts_S32x3x1_S32x3

/-- Column `k` read at channel (b, c) is the array at row 3*b + c, column k. -/
theorem stat_apply (A : FVec Ideal S96x128 .f32) (k : Fin 5) (h : S32x3x5.Slices ![0, 0, k.val] S32x3x1)
    (b : Fin 32) (c' : Fin 3) :
    stat A ![0, 0, k.val] h (ix2 b c')
      = A (ix2 (⟨3 * b.val + c'.val, by omega⟩ : Fin 96) (⟨k.val, by omega⟩ : Fin 128)) := by
  unfold stat
  refine (shapeCast_apply _ _ (ix2 b c') (ix3 b c' (0 : Fin 1)) ?_).trans ?_
  · rw [Shape.rowMajor_val_three, Shape.rowMajor_val_two]
    show (b.val * 3 + c'.val) * 1 + 0 = b.val * 3 + c'.val
    omega
  refine (extractStridedSlice_apply _ _ h (ix3 b c' (0 : Fin 1)) (ix3 b c' k) ?_).trans ?_
  · intro a
    match a with
    | ⟨0, _⟩ => show b.val = 0 + b.val; omega
    | ⟨1, _⟩ => show c'.val = 0 + c'.val; omega
    | ⟨2, _⟩ => show k.val = k.val + 0; omega
  refine (shapeCast_apply _ _ (ix3 b c' k) (ix2 (⟨3 * b.val + c'.val, by omega⟩ : Fin 96) k) ?_).trans ?_
  · rw [Shape.rowMajor_val_three, Shape.rowMajor_val_two]
    show (3 * b.val + c'.val) * 5 + k.val = (b.val * 3 + c'.val) * 5 + k.val
    omega
  refine extractStridedSlice_apply _ _ _ (ix2 (⟨3 * b.val + c'.val, by omega⟩ : Fin 96) k)
    (ix2 (⟨3 * b.val + c'.val, by omega⟩ : Fin 96) (⟨k.val, by omega⟩ : Fin 128)) ?_
  intro a
  match a with
  | ⟨0, _⟩ => show 3 * b.val + c'.val = 0 + (3 * b.val + c'.val); omega
  | ⟨1, _⟩ => show k.val = 0 + k.val; omega

/-- A scalar pattern broadcast over the 32 x 3 channels. -/
def splat (w : BitVec 32) : FVec Ideal S32x3 .f32 :=
  broadcastInDim S32x3 ![] bcast_S_S32x3 (constant (F := Ideal) S_ .f32 w)

/-- The scalar operations of the host stretch, on the five 32 x 3 arrays of sums, in the program's order. -/
def tailFn (s0 s1 s2 s3 s4 : FVec Ideal S32x3 .f32) : FVec Ideal S32x3 .f32 :=
  Host.divf
    (mulf
      (addf
        (mulf (mulf (splat 0x40000000#32) (Host.divf s0 (splat 0x48800000#32))) (Host.divf s1 (splat 0x48800000#32)))
        (splat 0x38D1B717#32))
      (addf
        (mulf (splat 0x40000000#32)
          (subf (Host.divf s4 (splat 0x48800000#32))
            (mulf (Host.divf s0 (splat 0x48800000#32)) (Host.divf s1 (splat 0x48800000#32)))))
        (splat 0x3A83126F#32)))
    (mulf
      (addf
        (addf (mulf (Host.divf s0 (splat 0x48800000#32)) (Host.divf s0 (splat 0x48800000#32)))
          (mulf (Host.divf s1 (splat 0x48800000#32)) (Host.divf s1 (splat 0x48800000#32))))
        (splat 0x38D1B717#32))
      (addf
        (addf
          (Host.divf (subf s2 (Host.divf (mulf s0 s0) (splat 0x48800000#32))) (splat 0x487FFFC0#32))
          (Host.divf (subf s3 (Host.divf (mulf s1 s1) (splat 0x48800000#32))) (splat 0x487FFFC0#32)))
        (splat 0x3A83126F#32)))

/-- Entry by entry, the scalar operations are the specification's formula of the five entries. -/
theorem tailFn_apply (s0 s1 s2 s3 s4 : FVec Ideal S32x3 .f32) (i : S32x3.Idx) :
    tailFn s0 s1 s2 s3 s4 i = Cert.Spec.ssim (s0 i) (s1 i) (s2 i) (s3 i) (s4 i) := rfl

/-- The host stretch's result is the scalar operations of the five columns of the region's array. -/
theorem tail_eq (W : Valuation τ sig (Elt Ideal)) :
    (StableHlo.after (hostOps1 (F := Ideal)) W (Proc.devRef .tc main_v54) : S32x3.Idx → Ideal .f32)
      = tailFn
          (stat (W (Proc.devRef .tc main_v2)) ![0, 0, 0] slices_S32x3x5_S32x3x1_0_0_0)
          (stat (W (Proc.devRef .tc main_v2)) ![0, 0, 1] slices_S32x3x5_S32x3x1_0_0_1)
          (stat (W (Proc.devRef .tc main_v2)) ![0, 0, 2] slices_S32x3x5_S32x3x1_0_0_2)
          (stat (W (Proc.devRef .tc main_v2)) ![0, 0, 3] slices_S32x3x5_S32x3x1_0_0_3)
          (stat (W (Proc.devRef .tc main_v2)) ![0, 0, 4] slices_S32x3x5_S32x3x1_0_0_4) := by
  show StableHlo.after hostOps1 W (Proc.devRef .tc main_v54) = _
  after_results_simp
  rfl

/-- THE HOST STRETCH READ AT A CHANNEL: the specification's formula of the first five entries of row 3*b + c of
    the region's array. -/
theorem tail_read (W : Valuation τ sig (Elt Ideal)) (b : Fin 32) (c' : Fin 3) :
    (StableHlo.after (hostOps1 (F := Ideal)) W (Proc.devRef .tc main_v54) : S32x3.Idx → Ideal .f32) (ix2 b c')
      = Cert.Spec.ssim
          ((W (Proc.devRef .tc main_v2) : S96x128.Idx → Ideal .f32) (ix2 (⟨3 * b.val + c'.val, by omega⟩ : Fin 96) (⟨0, by decide⟩ : Fin 128)))
          ((W (Proc.devRef .tc main_v2) : S96x128.Idx → Ideal .f32) (ix2 (⟨3 * b.val + c'.val, by omega⟩ : Fin 96) (⟨1, by decide⟩ : Fin 128)))
          ((W (Proc.devRef .tc main_v2) : S96x128.Idx → Ideal .f32) (ix2 (⟨3 * b.val + c'.val, by omega⟩ : Fin 96) (⟨2, by decide⟩ : Fin 128)))
          ((W (Proc.devRef .tc main_v2) : S96x128.Idx → Ideal .f32) (ix2 (⟨3 * b.val + c'.val, by omega⟩ : Fin 96) (⟨3, by decide⟩ : Fin 128)))
          ((W (Proc.devRef .tc main_v2) : S96x128.Idx → Ideal .f32) (ix2 (⟨3 * b.val + c'.val, by omega⟩ : Fin 96) (⟨4, by decide⟩ : Fin 128))) := by
  rw [tail_eq, tailFn_apply]
  exact congr (congr (congr (congr (congrArg Cert.Spec.ssim
    (stat_apply _ (0 : Fin 5) slices_S32x3x5_S32x3x1_0_0_0 b c'))
    (stat_apply _ (1 : Fin 5) slices_S32x3x5_S32x3x1_0_0_1 b c'))
    (stat_apply _ (2 : Fin 5) slices_S32x3x5_S32x3x1_0_0_2 b c'))
    (stat_apply _ (3 : Fin 5) slices_S32x3x5_S32x3x1_0_0_3 b c'))
    (stat_apply _ (4 : Fin 5) slices_S32x3x5_S32x3x1_0_0_4 b c')

end Cert.KernelIdeal.Tail

end
-- ==== Proof.IdealResult.lean ====
/-
  The idealized kernel's result, as one function of the two launched images.

  After the run the 96 x 128 array holds the statistics of the two reshaped images, and the 65 later operations
  compute, channel by channel, the structural-similarity formula of row 3b + c's columns 0..4. Row 3b + c of the
  reshaped image is channel (b, c) of the image, so those five entries are the channel's five sums: the result
  buffer ends at `Cert.Spec.result` of the images as launched.
-/
import proofs.«137015_j20375324852448_2_alg».proof.Proof.IdealArray
import proofs.«137015_j20375324852448_2_alg».proof.Proof.IdealTail
import proofs.«137015_j20375324852448_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- A row sum over two reshaped arrays is the channel sum over the two images. -/
theorem rowSum2_eq_chanSum (f : Ideal .f32 → Ideal .f32 → Ideal .f32) (A B : FVec Ideal S96x512x512 .f32)
    (X Y : FVec Ideal Cert.Spec.SImg .f32) (b : Fin 32) (c' : Fin 3) (hbc : 3 * b.val + c'.val < 96)
    (hA : ∀ h w : Fin 512, A (ix3 ⟨3 * b.val + c'.val, hbc⟩ h w) = X (ix4 b c' h w))
    (hB : ∀ h w : Fin 512, B (ix3 ⟨3 * b.val + c'.val, hbc⟩ h w) = Y (ix4 b c' h w)) :
    rowSum2 f A B ⟨3 * b.val + c'.val, hbc⟩ = Cert.Spec.chanSum (fun i => f (X i) (Y i)) (ix2 b c') := by
  unfold rowSum2 Cert.Spec.chanSum
  exact Finset.sum_congr rfl fun h _ => Finset.sum_congr rfl fun w _ => congrArg₂ f (hA h w) (hB h w)

/-- THE RESULT BUFFER after the run is the specification's function of the two launched images. -/
theorem result_eq (c : Dev nD) :
    (Pipeline.afterTail₀ cfgs (dats m) 0 (V0 m) [hostOps1] c main_v54 : S32x3.Idx → Ideal .f32)
      = Cert.Spec.result (m ((c : Thread nD τ).loc main_arg0)) (m ((c : Thread nD τ).loc main_arg1)) := by
  funext j
  obtain ⟨b, c', rfl⟩ : ∃ (b : Fin 32) (c' : Fin 3), j = ix2 b c' := ⟨j 0, j 1, eq_ix2 j⟩
  have hbc : 3 * b.val + c'.val < 96 := by have := b.isLt; have := c'.isLt; omega
  refine Eq.trans ?_ ((Cert.KernelIdeal.Tail.tail_read
    (Pipeline.withArrays spec0 c (V0 m c) (fun w => (dats m 0 c).arrAt w cfg0.N)) b c').trans ?_)
  · unfold Pipeline.afterTail₀
    simp only [List.flatten_cons, List.flatten_nil, List.append_nil]
  -- the array the later operations read is the statistics of the two reshaped images
  have hW : (Pipeline.withArrays spec0 c (V0 m c) (fun w => (dats m 0 c).arrAt w cfg0.N) (Proc.devRef .tc main_v2) : S96x128.Idx → Ideal .f32)
      = statsFn (V m c main_v0) (V m c main_v1) :=
    (Pipeline.withArrays_arr spec0 launch0.win.arr_inj c _ _ 2).trans (final2 m c)
  rw [hW]
  have e0 := rowSum2_eq_chanSum (fun a _ => a) (V m c main_v0) (V m c main_v0) _ _ b c' hbc (V_main_v0_apply m c b c') (V_main_v0_apply m c b c')
  have e1 := rowSum2_eq_chanSum (fun a _ => a) (V m c main_v1) (V m c main_v1) _ _ b c' hbc (V_main_v1_apply m c b c') (V_main_v1_apply m c b c')
  have e2 := rowSum2_eq_chanSum FloatOps.mulf (V m c main_v0) (V m c main_v0) _ _ b c' hbc (V_main_v0_apply m c b c') (V_main_v0_apply m c b c')
  have e3 := rowSum2_eq_chanSum FloatOps.mulf (V m c main_v1) (V m c main_v1) _ _ b c' hbc (V_main_v1_apply m c b c') (V_main_v1_apply m c b c')
  have e4 := rowSum2_eq_chanSum FloatOps.mulf (V m c main_v0) (V m c main_v1) _ _ b c' hbc (V_main_v0_apply m c b c') (V_main_v1_apply m c b c')
  unfold Cert.Spec.result
  refine congr (congr (congr (congr (congrArg Cert.Spec.ssim ?_) ?_) ?_) ?_) ?_
  · show statsAt (V m c main_v0) (V m c main_v1) ⟨3 * b.val + c'.val, hbc⟩ 0 = _
    unfold statsAt
    rw [if_pos rfl]
    exact e0
  · show statsAt (V m c main_v0) (V m c main_v1) ⟨3 * b.val + c'.val, hbc⟩ 1 = _
    unfold statsAt
    rw [if_neg (show ¬((1 : ℕ) = 0) by decide), if_pos rfl]
    exact e1
  · show statsAt (V m c main_v0) (V m c main_v1) ⟨3 * b.val + c'.val, hbc⟩ 2 = _
    unfold statsAt
    rw [if_neg (show ¬((2 : ℕ) = 0) by decide), if_neg (show ¬((2 : ℕ) = 1) by decide), if_pos rfl]
    exact e2
  · show statsAt (V m c main_v0) (V m c main_v1) ⟨3 * b.val + c'.val, hbc⟩ 3 = _
    unfold statsAt
    rw [if_neg (show ¬((3 : ℕ) = 0) by decide), if_neg (show ¬((3 : ℕ) = 1) by decide), if_neg (show ¬((3 : ℕ) = 2) by decide), if_pos rfl]
    exact e3
  · show statsAt (V m c main_v0) (V m c main_v1) ⟨3 * b.val + c'.val, hbc⟩ 4 = _
    unfold statsAt
    rw [if_neg (show ¬((4 : ℕ) = 0) by decide), if_neg (show ¬((4 : ℕ) = 1) by decide), if_neg (show ¬((4 : ℕ) = 2) by decide), if_neg (show ¬((4 : ℕ) = 3) by decide), if_pos rfl]
    exact e4

theorem main_v54_rest : main_v54 ∈ Pipeline.restRefs sig spec0 := by decide

end Cert.KernelIdeal.Hand

end
-- ==== Proof.SumAlgebra.lean ====
/-
  Centred sums against raw moments, over the reals.

  For a finite family x, y : ι → ℝ of n terms (n not zero) with means a = (∑ x)/n and b = (∑ y)/n,
      ∑ (x i - a) * (y i - b) = ∑ x i * y i - (∑ x) * (∑ y) / n :
  expanding the product gives ∑ x y - a ∑ y - b ∑ x + n a b, and each of the last three terms is
  (∑ x)(∑ y)/n up to sign. With y = x this is the sum of squared deviations; divided by n it is the
  covariance as the mean of the products minus the product of the means. Also here: a finite sum of
  reals, read in the extended reals, is the sum of the terms read there.
-/
import Mathlib.Algebra.BigOperators.Field
import Mathlib.Data.EReal.Basic
import Mathlib.Tactic.FieldSimp
import Mathlib.Tactic.Ring

namespace Cert.SumAlgebra

open scoped BigOperators

variable {ι : Type*} [Fintype ι]

/-- The sum of the products of deviations from two constants, expanded. -/
theorem sum_sub_mul_sub (x y : ι → ℝ) (a b : ℝ) :
    ∑ i, (x i - a) * (y i - b)
      = ∑ i, x i * y i - a * ∑ i, y i - b * ∑ i, x i + (Fintype.card ι : ℝ) * (a * b) := by
  have h : ∀ i, (x i - a) * (y i - b) = x i * y i - a * y i - b * x i + a * b := fun i => by ring
  simp only [h, Finset.sum_add_distrib, Finset.sum_sub_distrib, ← Finset.mul_sum, Finset.sum_const,
    Finset.card_univ, nsmul_eq_mul]
  ring

/-- The sum of the products of deviations from the means is the sum of the products minus the product
    of the sums over the count. -/
theorem sum_dev_mul_dev (x y : ι → ℝ) (n : ℝ) (hn : (Fintype.card ι : ℝ) = n) (h0 : n ≠ 0) :
    ∑ i, (x i - (∑ k, x k) / n) * (y i - (∑ k, y k) / n)
      = ∑ i, x i * y i - (∑ k, x k) * (∑ k, y k) / n := by
  rw [sum_sub_mul_sub, hn]
  field_simp
  ring

/-- The sum of squared deviations from the mean is the sum of squares minus the square of the sum over the count. -/
theorem sum_dev_sq (x : ι → ℝ) (n : ℝ) (hn : (Fintype.card ι : ℝ) = n) (h0 : n ≠ 0) :
    ∑ i, (x i - (∑ k, x k) / n) * (x i - (∑ k, x k) / n)
      = ∑ i, x i * x i - (∑ k, x k) * (∑ k, x k) / n :=
  sum_dev_mul_dev x x n hn h0

/-- The mean of the products of deviations is the mean of the products minus the product of the means. -/
theorem mean_dev_mul_dev (x y : ι → ℝ) (n : ℝ) (hn : (Fintype.card ι : ℝ) = n) (h0 : n ≠ 0) :
    (∑ i, (x i - (∑ k, x k) / n) * (y i - (∑ k, y k) / n)) / n
      = (∑ i, x i * y i) / n - (∑ k, x k) / n * ((∑ k, y k) / n) := by
  rw [sum_dev_mul_dev x y n hn h0]
  field_simp

/-- A finite sum of reals read in the extended reals is the sum of the terms read there. -/
theorem coe_sum {κ : Type*} (s : Finset κ) (f : κ → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.SumAlgebra
-- ==== Proof.ChanSum.lean ====
/-
  A sum over the two image axes, channel by channel.

  Summing an image-indexed family over axes 2 and 3 keeps, at result index (b, c), exactly the image
  indices whose first two coordinates are (b, c); those are the indices (b, c, h, w) with h, w free, so
  the sum is the double sum over the 512 rows and 512 columns of the channel. Also: the channel sum
  of real entries is the real double sum, and a sum over the pairs (h, w).
-/
import proofs.«137015_j20375324852448_2_alg».proof.Proof.Spec
import proofs.«137015_j20375324852448_2_alg».proof.Proof.SumAlgebra
import Idealize.ShloMosaic.PureOps.Reduce

noncomputable section

namespace Cert.ChanSum

open Idealize.ShloMosaic Idealize.ShloMosaic.ValueIdx Cert.Spec

open scoped BigOperators

/-- An image index reduces to channel `j` exactly when its first two coordinates are `j`'s. -/
theorem drop_eq_iff (h : SImg.ReducesTo [2, 3] SChan) (i : SImg.Idx) (j : SChan.Idx) :
    h.drop i = j ↔ (i 0).val = (j 0).val ∧ (i 1).val = (j 1).val := by
  have e0 : ((h.drop i 0 : Fin 32) : Nat) = (i 0).val := Shape.ReducesTo.drop_apply_val_of_eq h i 0 0
  have e1 : ((h.drop i 1 : Fin 3) : Nat) = (i 1).val := Shape.ReducesTo.drop_apply_val_of_eq h i 1 1
  constructor
  · rintro rfl
    exact ⟨e0.symm, e1.symm⟩
  · rintro ⟨h0, h1⟩
    funext a
    match a with
    | ⟨0, _⟩ => exact Fin.ext (e0.trans h0)
    | ⟨1, _⟩ => exact Fin.ext (e1.trans h1)

/-- The sum over the image indices that reduce to channel `j` is the channel's double sum. -/
theorem sum_filter_drop (h : SImg.ReducesTo [2, 3] SChan) (f : SImg.Idx → EReal) (j : SChan.Idx) :
    ∑ i ∈ Finset.univ.filter (fun i => h.drop i = j), f i = chanSum f j := by
  unfold chanSum
  rw [← Fintype.sum_prod_type' (fun (a b : Fin 512) => f (ix4 (j 0) (j 1) a b))]
  refine Finset.sum_nbij' (fun i => ((i 2 : Fin 512), (i 3 : Fin 512))) (fun p => ix4 (j 0) (j 1) p.1 p.2)
    (fun _ _ => Finset.mem_univ _) ?_ ?_ (fun _ _ => rfl) ?_
  · intro p _
    rw [Finset.mem_filter]
    exact ⟨Finset.mem_univ _, (drop_eq_iff h _ j).2 ⟨rfl, rfl⟩⟩
  · intro a ha
    obtain ⟨h0, h1⟩ := (drop_eq_iff h a j).1 (Finset.mem_filter.1 ha).2
    funext e
    match e with
    | ⟨0, _⟩ => exact Fin.ext h0.symm
    | ⟨1, _⟩ => exact Fin.ext h1.symm
    | ⟨2, _⟩ => rfl
    | ⟨3, _⟩ => rfl
  · intro a ha
    obtain ⟨h0, h1⟩ := (drop_eq_iff h a j).1 (Finset.mem_filter.1 ha).2
    refine congrArg f ?_
    funext e
    match e with
    | ⟨0, _⟩ => exact Fin.ext h0
    | ⟨1, _⟩ => exact Fin.ext h1
    | ⟨2, _⟩ => rfl
    | ⟨3, _⟩ => rfl

/-- Two families that agree on a channel's positions have the same channel sum. -/
theorem chanSum_congr {f g : SImg.Idx → EReal} (j : SChan.Idx)
    (h : ∀ a b : Fin 512, f (ix4 (j 0) (j 1) a b) = g (ix4 (j 0) (j 1) a b)) : chanSum f j = chanSum g j := by
  unfold chanSum
  exact Finset.sum_congr rfl fun a _ => Finset.sum_congr rfl fun b _ => h a b

/-- The host's sum over axes 2 and 3, read at a channel: the initial value plus the channel sum. -/
theorem hostReduceAdd_eq (h : SImg.ReducesTo [2, 3] SChan) (f : SImg.Idx → EReal) (init : EReal) (j : SChan.Idx) :
    Ideal.hostReduceAdd h f init j = init + chanSum f j := by
  unfold Ideal.hostReduceAdd
  rw [sum_filter_drop]

/-- A channel sum as one sum over the pairs (row, column). -/
theorem chanSum_eq_sum_prod (f : SImg.Idx → EReal) (j : SChan.Idx) :
    chanSum f j = ∑ p : Fin 512 × Fin 512, f (ix4 (j 0) (j 1) p.1 p.2) :=
  (Fintype.sum_prod_type' (fun (a b : Fin 512) => f (ix4 (j 0) (j 1) a b))).symm

/-- The channel sum of real entries is the real sum over the pairs, read in the extended reals. -/
theorem chanSum_coe (r : SImg.Idx → ℝ) (j : SChan.Idx) :
    chanSum (fun i => ((r i : ℝ) : EReal)) j = ((∑ p : Fin 512 × Fin 512, r (ix4 (j 0) (j 1) p.1 p.2) : ℝ) : EReal) := by
  rw [chanSum_eq_sum_prod, Cert.SumAlgebra.coe_sum]

/-- The number of pairs (row, column), as a real. -/
theorem card_pairs : (Fintype.card (Fin 512 × Fin 512) : ℝ) = 262144 := by
  simp [Fintype.card_prod]

end Cert.ChanSum

end
-- ==== Proof.Consts.lean ====
/-
  The two counts the programs divide by, as reals, and the quotient of a real by a real that is not zero.

  The pattern 0x48800000 is 2^18 = 262144 = 512 * 512, and 0x487FFFC0 is (2^23 + 8388544) * 2^(-6) = 262143.
  Division of a real by a real that is not zero is the real quotient.
-/
import proofs.«137015_j20375324852448_2_alg».proof.Proof.Spec

noncomputable section

namespace Cert.Consts

open Idealize.ShloMosaic Cert.Spec

/-- The count of positions of a channel, 512 * 512. -/
theorem cN_eq : cN = ((262144 : ℝ) : EReal) := by
  simp [Ideal.ofBits, Ideal.ieee, -EReal.coe_mul]; norm_num

/-- One less than the count. -/
theorem cN1_eq : cN1 = ((262143 : ℝ) : EReal) := by
  simp [Ideal.ofBits, Ideal.ieee, -EReal.coe_mul]; norm_num

/-- A real divided by a real that is not zero is the real quotient. -/
theorem div_coe_coe (a : ℝ) {n : ℝ} (h : n ≠ 0) : Ideal.div (a : EReal) (n : EReal) = ((a / n : ℝ) : EReal) := by
  rw [Ideal.div_coe h, ← EReal.coe_mul, mul_one_div]

end Cert.Consts

end
-- ==== Proof.Moments.lean ====
/-
  The channel statistics in both spellings, and their agreement on real images.

  Both programs end with the same operations on five numbers of a channel: the two means, the two
  variances and the covariance (`ssimOf`). The specification takes the variances and the covariance from
  the raw moments:  var = (sum x*x - (sum x)*(sum x)/n)/(n-1),  cov = (sum x*y)/n - mu1*mu2;  the reference
  takes them from the deviations:  var = (sum (x - mu1)^2)/(n-1),  cov = (sum (x - mu1)*(y - mu2))/n.
  When every entry is a real, every sum is a real sum over the n = 512*512 positions of the channel,
  every division is by the real n or n-1, and the two spellings are equal by the algebra of centred sums.
-/
import proofs.«137015_j20375324852448_2_alg».proof.Proof.ChanSum
import proofs.«137015_j20375324852448_2_alg».proof.Proof.Consts

noncomputable section

namespace Cert.Moments

open Idealize.ShloMosaic Idealize.ShloMosaic.ValueIdx Cert.Spec Cert.ChanSum Cert.Consts Cert.SumAlgebra

open scoped BigOperators

/-- The value of a channel from its two means, two variances and covariance: the last operations of both
    programs. -/
def ssimOf (mu1 mu2 var1 var2 cov : Ideal .f32) : Ideal .f32 :=
  FloatOps.hostDivf
    (FloatOps.mulf (FloatOps.addf (FloatOps.mulf (FloatOps.mulf cTwo mu1) mu2) cC1)
      (FloatOps.addf (FloatOps.mulf cTwo cov) cC2))
    (FloatOps.mulf (FloatOps.addf (FloatOps.addf (FloatOps.mulf mu1 mu1) (FloatOps.mulf mu2 mu2)) cC1)
      (FloatOps.addf (FloatOps.addf var1 var2) cC2))

/-- The mean of channel `j`. -/
def mean (x : FVec Ideal SImg .f32) (j : SChan.Idx) : Ideal .f32 := FloatOps.hostDivf (chanSum x j) cN

/-- The variance of channel `j` from the deviations: squared deviations over n - 1. -/
def varDev (x : FVec Ideal SImg .f32) (j : SChan.Idx) : Ideal .f32 :=
  FloatOps.hostDivf
    (chanSum (fun i => FloatOps.mulf (FloatOps.subf (x i) (mean x j)) (FloatOps.subf (x i) (mean x j))) j) cN1

/-- The covariance of channel `j` from the deviations: the mean of their products. -/
def covDev (x y : FVec Ideal SImg .f32) (j : SChan.Idx) : Ideal .f32 :=
  FloatOps.hostDivf
    (chanSum (fun i => FloatOps.mulf (FloatOps.subf (x i) (mean x j)) (FloatOps.subf (y i) (mean y j))) j) cN

/-- The variance of channel `j` from the raw moments. -/
def varRaw (x : FVec Ideal SImg .f32) (j : SChan.Idx) : Ideal .f32 :=
  FloatOps.hostDivf
    (FloatOps.subf (chanSum (fun i => FloatOps.mulf (x i) (x i)) j)
      (FloatOps.hostDivf (FloatOps.mulf (chanSum x j) (chanSum x j)) cN)) cN1

/-- The covariance of channel `j` from the raw moments. -/
def covRaw (x y : FVec Ideal SImg .f32) (j : SChan.Idx) : Ideal .f32 :=
  FloatOps.subf (FloatOps.hostDivf (chanSum (fun i => FloatOps.mulf (x i) (y i)) j) cN)
    (FloatOps.mulf (mean x j) (mean y j))

/-- The specification at a channel is `ssimOf` of the means and the raw-moment variances and covariance. -/
theorem result_at (x y : FVec Ideal SImg .f32) (j : SChan.Idx) :
    result x y j = ssimOf (mean x j) (mean y j) (varRaw x j) (varRaw y j) (covRaw x y j) := rfl

/-- The positions of channel `j`, by (row, column). -/
abbrev pos (j : SChan.Idx) (p : Fin 512 × Fin 512) : SImg.Idx := ix4 (j 0) (j 1) p.1 p.2

/-- A real over the count n is the real quotient … -/
theorem hostDivf_coe_cN (a : ℝ) : FloatOps.hostDivf (F := Ideal) (φ := .f32) (a : EReal) cN = ((a / 262144 : ℝ) : EReal) := by
  rw [Ideal.hostDivf_def, cN_eq, div_coe_coe _ (by norm_num)]

/-- … and so is a real over n - 1. -/
theorem hostDivf_coe_cN1 (a : ℝ) : FloatOps.hostDivf (F := Ideal) (φ := .f32) (a : EReal) cN1 = ((a / 262143 : ℝ) : EReal) := by
  rw [Ideal.hostDivf_def, cN1_eq, div_coe_coe _ (by norm_num)]

section Real

variable (r s : SImg.Idx → ℝ) (j : SChan.Idx)

/-- The channel sum of products of real entries. -/
theorem chanSum_coe_mul :
    chanSum (fun i => FloatOps.mulf (F := Ideal) (φ := .f32) (r i : EReal) (s i : EReal)) j
      = ((∑ p, r (pos j p) * s (pos j p) : ℝ) : EReal) := by
  have e : (fun i => FloatOps.mulf (F := Ideal) (φ := .f32) (r i : EReal) (s i : EReal))
      = fun i => ((r i * s i : ℝ) : EReal) := funext fun i => (EReal.coe_mul _ _).symm
  rw [e, chanSum_coe]

/-- The channel sum of products of deviations of real entries from real constants. -/
theorem chanSum_coe_dev (a b : ℝ) :
    chanSum (fun i => FloatOps.mulf (F := Ideal) (φ := .f32) (FloatOps.subf (r i : EReal) (a : EReal))
        (FloatOps.subf (s i : EReal) (b : EReal))) j
      = ((∑ p, (r (pos j p) - a) * (s (pos j p) - b) : ℝ) : EReal) := by
  have e : (fun i => FloatOps.mulf (F := Ideal) (φ := .f32) (FloatOps.subf (r i : EReal) (a : EReal))
        (FloatOps.subf (s i : EReal) (b : EReal)))
      = fun i => (((r i - a) * (s i - b) : ℝ) : EReal) := funext fun i => by
    rw [Ideal.subf_def, Ideal.subf_def, Ideal.mulf_def, ← EReal.coe_sub, ← EReal.coe_sub, ← EReal.coe_mul]
  rw [e, chanSum_coe]

/-- The mean of real entries is the real mean. -/
theorem mean_coe : mean (fun i => (r i : EReal)) j = (((∑ p, r (pos j p)) / 262144 : ℝ) : EReal) := by
  unfold mean
  rw [chanSum_coe, hostDivf_coe_cN]

/-- The deviation variance of real entries, as a real. -/
theorem varDev_coe :
    varDev (fun i => (r i : EReal)) j
      = (((∑ p, r (pos j p) * r (pos j p) - (∑ p, r (pos j p)) * (∑ p, r (pos j p)) / 262144) / 262143 : ℝ) : EReal) := by
  unfold varDev
  rw [mean_coe, chanSum_coe_dev, sum_dev_sq (fun p => r (pos j p)) 262144 card_pairs (by norm_num),
    hostDivf_coe_cN1]

/-- The raw-moment variance of real entries is the same real. -/
theorem varRaw_coe :
    varRaw (fun i => (r i : EReal)) j
      = (((∑ p, r (pos j p) * r (pos j p) - (∑ p, r (pos j p)) * (∑ p, r (pos j p)) / 262144) / 262143 : ℝ) : EReal) := by
  unfold varRaw
  rw [chanSum_coe_mul, chanSum_coe, Ideal.mulf_def, ← EReal.coe_mul, hostDivf_coe_cN, Ideal.subf_def, ← EReal.coe_sub,
    hostDivf_coe_cN1]

/-- The deviation covariance of real entries, as a real. -/
theorem covDev_coe :
    covDev (fun i => (r i : EReal)) (fun i => (s i : EReal)) j
      = (((∑ p, r (pos j p) * s (pos j p)) / 262144
          - (∑ p, r (pos j p)) / 262144 * ((∑ p, s (pos j p)) / 262144) : ℝ) : EReal) := by
  unfold covDev
  rw [mean_coe, mean_coe, chanSum_coe_dev, hostDivf_coe_cN,
    mean_dev_mul_dev (fun p => r (pos j p)) (fun p => s (pos j p)) 262144 card_pairs (by norm_num)]

/-- The raw-moment covariance of real entries is the same real. -/
theorem covRaw_coe :
    covRaw (fun i => (r i : EReal)) (fun i => (s i : EReal)) j
      = (((∑ p, r (pos j p) * s (pos j p)) / 262144
          - (∑ p, r (pos j p)) / 262144 * ((∑ p, s (pos j p)) / 262144) : ℝ) : EReal) := by
  unfold covRaw
  rw [mean_coe, mean_coe, chanSum_coe_mul, hostDivf_coe_cN, Ideal.mulf_def, ← EReal.coe_mul, Ideal.subf_def,
    ← EReal.coe_sub]

/-- On real images the two variances agree … -/
theorem varDev_eq_varRaw : varDev (fun i => (r i : EReal)) j = varRaw (fun i => (r i : EReal)) j := by
  rw [varDev_coe, varRaw_coe]

/-- … and so do the two covariances. -/
theorem covDev_eq_covRaw :
    covDev (fun i => (r i : EReal)) (fun i => (s i : EReal)) j
      = covRaw (fun i => (r i : EReal)) (fun i => (s i : EReal)) j := by
  rw [covDev_coe, covRaw_coe]

end Real

end Cert.Moments

end
-- ==== Proof.RefRead.lean ====
/-
  The reference, channel by channel.

  The reference computes, for each channel j = (batch, channel), the means mu1 = (sum x)/n and mu2 = (sum y)/n,
  broadcasts them back over the channel's positions, subtracts, and sums the products of the deviations over
  the channel: var1 = (sum (x - mu1)^2)/(n-1), var2 likewise, cov = (sum (x - mu1)(y - mu2))/n; the value is
      ((2*mu1*mu2 + C1) * (2*cov + C2)) / ((mu1*mu1 + mu2*mu2 + C1) * (var1 + var2 + C2)).
  Each of its five sums over axes 2 and 3 is a channel sum; the broadcast of a mean read at a position of
  channel j is the mean of channel j.
-/
import proofs.«137015_j20375324852448_2_alg».proof.Proof.Gen.ReferenceIdeal.Read
import proofs.«137015_j20375324852448_2_alg».proof.Proof.Moments
import Idealize.ShloMosaic.PureOps.Ideal.Laws

noncomputable section

namespace Cert.RefRead

open Idealize.ShloMosaic Idealize.ShloMosaic.ValueIdx Cert.Spec Cert.Moments Cert.ReferenceIdeal Cert.ReferenceIdeal.Read

/-- The channel of a position of channel `j` is `j`. -/
theorem chan_of_pos (j : SChan.Idx) (a b : Fin 512) : idx_main_v6 (idx_main_v7 (ix4 (j 0) (j 1) a b)) = j := by
  funext e
  match e with
  | ⟨0, _⟩ => rfl
  | ⟨1, _⟩ => rfl

/-- A sum over axes 2 and 3 from the zero pattern is the channel sum. -/
theorem reduce_zero (f : FVec Ideal SImg .f32) (init : FVec Ideal S_ .f32)
    (hinit : ∀ i, init i = FloatOps.ofBits .f32 0x00000000#32) (h : SImg.ReducesTo [2, 3] SChan) (hu : 0 < S_.numel)
    (j : SChan.Idx) : Host.reduceAdd f init h hu j = chanSum f j := by
  show Ideal.hostReduceAdd _ f (init _) j = _
  rw [Cert.ChanSum.hostReduceAdd_eq, hinit, Ideal.ofBits_def, Ideal.ofBits_zero_f32, zero_add]

/-- The same for the second image's broadcast. -/
theorem chan_of_pos' (j : SChan.Idx) (a b : Fin 512) : idx_main_v9 (idx_main_v10 (ix4 (j 0) (j 1) a b)) = j := by
  funext e
  match e with
  | ⟨0, _⟩ => rfl
  | ⟨1, _⟩ => rfl

/-- The first image's sum over a channel. -/
theorem sum_x (x : FVec Ideal SImg .f32) (j : SChan.Idx) : val_main_v0 (F := Ideal) x j = chanSum x j := by
  unfold val_main_v0
  exact reduce_zero x (val_main_cst (F := Ideal)) (val_main_cst_apply (F := Ideal)) _ _ j

/-- The second image's sum over a channel. -/
theorem sum_y (y : FVec Ideal SImg .f32) (j : SChan.Idx) : val_main_v3 (F := Ideal) y j = chanSum y j := by
  unfold val_main_v3
  exact reduce_zero y (val_main_cst_1 (F := Ideal)) (val_main_cst_1_apply (F := Ideal)) _ _ j

/-- The first image's mean over a channel. -/
theorem mean_x (x : FVec Ideal SImg .f32) (j : SChan.Idx) : val_main_v2 (F := Ideal) x j = mean x j := by
  rw [val_main_v2_apply, sum_x, val_main_v1_apply, val_main_cst_0_apply]
  rfl

/-- The second image's mean over a channel. -/
theorem mean_y (y : FVec Ideal SImg .f32) (j : SChan.Idx) : val_main_v5 (F := Ideal) y j = mean y j := by
  rw [val_main_v5_apply, sum_y, val_main_v4_apply, val_main_cst_2_apply]
  rfl

/-- The first image's deviation from its channel mean, at a position of channel `j`. -/
theorem dev_x (x : FVec Ideal SImg .f32) (j : SChan.Idx) (a b : Fin 512) :
    val_main_v8 (F := Ideal) x (ix4 (j 0) (j 1) a b) = FloatOps.subf (x (ix4 (j 0) (j 1) a b)) (mean x j) := by
  rw [val_main_v8_apply, val_main_v7_apply, val_main_v6_apply, chan_of_pos, mean_x]

/-- The second image's deviation from its channel mean, at a position of channel `j`. -/
theorem dev_y (y : FVec Ideal SImg .f32) (j : SChan.Idx) (a b : Fin 512) :
    val_main_v11 (F := Ideal) y (ix4 (j 0) (j 1) a b) = FloatOps.subf (y (ix4 (j 0) (j 1) a b)) (mean y j) := by
  rw [val_main_v11_apply, val_main_v10_apply, val_main_v9_apply, chan_of_pos', mean_y]

/-- The sum of the first image's squared deviations over a channel. -/
theorem sum_dev_xx (x : FVec Ideal SImg .f32) (j : SChan.Idx) :
    val_main_v13 (F := Ideal) x j
      = chanSum (fun i => FloatOps.mulf (FloatOps.subf (x i) (mean x j)) (FloatOps.subf (x i) (mean x j))) j := by
  unfold val_main_v13
  refine (reduce_zero _ (val_main_cst_3 (F := Ideal)) (val_main_cst_3_apply (F := Ideal)) _ _ j).trans ?_
  exact Cert.ChanSum.chanSum_congr j fun a b => by rw [val_main_v12_apply, dev_x]

/-- The sum of the second image's squared deviations over a channel. -/
theorem sum_dev_yy (y : FVec Ideal SImg .f32) (j : SChan.Idx) :
    val_main_v17 (F := Ideal) y j
      = chanSum (fun i => FloatOps.mulf (FloatOps.subf (y i) (mean y j)) (FloatOps.subf (y i) (mean y j))) j := by
  unfold val_main_v17
  refine (reduce_zero _ (val_main_cst_5 (F := Ideal)) (val_main_cst_5_apply (F := Ideal)) _ _ j).trans ?_
  exact Cert.ChanSum.chanSum_congr j fun a b => by rw [val_main_v16_apply, dev_y]

/-- The sum of the products of the two images' deviations over a channel. -/
theorem sum_dev_xy (x y : FVec Ideal SImg .f32) (j : SChan.Idx) :
    val_main_v21 (F := Ideal) x y j
      = chanSum (fun i => FloatOps.mulf (FloatOps.subf (x i) (mean x j)) (FloatOps.subf (y i) (mean y j))) j := by
  unfold val_main_v21
  refine (reduce_zero _ (val_main_cst_7 (F := Ideal)) (val_main_cst_7_apply (F := Ideal)) _ _ j).trans ?_
  exact Cert.ChanSum.chanSum_congr j fun a b => by rw [val_main_v20_apply, dev_x, dev_y]

/-- THE REFERENCE AT A CHANNEL: `ssimOf` of the means, the deviation variances and the deviation covariance. -/
theorem ref_at (x y : FVec Ideal SImg .f32) (j : SChan.Idx) :
    val_main_v43 (F := Ideal) x y j = ssimOf (mean x j) (mean y j) (varDev x j) (varDev y j) (covDev x y j) := by
  rw [val_main_v43_apply, val_main_v33_apply, val_main_v28_apply, val_main_v26_apply, val_main_v25_apply,
    val_main_v24_apply, val_main_cst_9_apply, val_main_v27_apply, val_main_cst_10_apply, val_main_v32_apply,
    val_main_v30_apply, val_main_v29_apply, val_main_cst_11_apply, val_main_v23_apply, val_main_v22_apply,
    val_main_cst_8_apply, val_main_v31_apply, val_main_cst_12_apply, val_main_v42_apply, val_main_v38_apply,
    val_main_v36_apply, val_main_v34_apply, val_main_v35_apply, val_main_v37_apply, val_main_cst_13_apply,
    val_main_v41_apply, val_main_v39_apply, val_main_v15_apply, val_main_v14_apply, val_main_cst_4_apply,
    val_main_v19_apply, val_main_v18_apply, val_main_cst_6_apply, val_main_v40_apply, val_main_cst_14_apply,
    mean_x, mean_y, sum_dev_xx, sum_dev_yy, sum_dev_xy]
  rfl

end Cert.RefRead

end
-- ==== Proof.RefBridge.lean ====
/-
  The reference computes the specification on real images.

  Channel by channel the reference is the common last operations applied to the means and the deviation
  variances and covariance; the specification is the same operations applied to the means and the raw-moment
  variances and covariance. When every entry of both images is a real these agree, so the two values are the
  same operations of the same five numbers: the final quotient is never opened.
-/
import proofs.«137015_j20375324852448_2_alg».proof.Proof.RefRead

noncomputable section

namespace Cert.RefBridge

open Idealize.ShloMosaic Cert.Spec Cert.Moments

/-- On images of real entries the reference's result is the specification's, channel by channel. -/
theorem ref_eq_result_coe (rx ry : SImg.Idx → ℝ) (j : SChan.Idx) :
    Cert.ReferenceIdeal.Read.val_main_v43 (F := Ideal) (fun i => (rx i : EReal)) (fun i => (ry i : EReal)) j
      = result (fun i => (rx i : EReal)) (fun i => (ry i : EReal)) j := by
  rw [Cert.RefRead.ref_at, result_at, varDev_eq_varRaw, varDev_eq_varRaw, covDev_eq_covRaw]

/-- THE BRIDGE: on images all of whose entries are reals, the reference's result is the specification's. -/
theorem ref_eq_result (x y : FVec Ideal Cert.Spec.SImg .f32) (hx : ∀ i, ∃ r : ℝ, x i = (r : EReal))
    (hy : ∀ i, ∃ r : ℝ, y i = (r : EReal)) :
    Cert.ReferenceIdeal.Read.val_main_v43 (F := Ideal) x y = Cert.Spec.result x y := by
  choose rx hrx using hx
  choose ry hry using hy
  have ex : x = fun i => ((rx i : ℝ) : EReal) := funext hrx
  have ey : y = fun i => ((ry i : ℝ) : EReal) := funext hry
  rw [ex, ey]
  exact funext fun j => ref_eq_result_coe rx ry j

end Cert.RefBridge

end
-- ==== Proof.Finite.lean ====
/-
  From the precondition to real entries.

  The precondition is the conjunction, over both images, of "every entry's absolute value is below
  the pattern of +infinity". On the extended reals that pattern is the top element, and
  max x (-x) < top leaves out exactly the two infinities: every entry of both images is a real.
-/
import proofs.«137015_j20375324852448_2_alg».proof.Pre_finite_inputs
import proofs.«137015_j20375324852448_2_alg».proof.Proof.Spec
import Idealize.ShloMosaic.Lib.ReduceAll

noncomputable section

namespace Cert.Finite

open Idealize.ShloMosaic Idealize.ShloMosaic.ValueIdx

/-- The scalar shape has one index. -/
instance : Subsingleton Cert.Pre_finite_inputs.S_.Idx := ⟨fun a b => funext fun d => d.elim0⟩

/-- The pattern of +infinity is the top element. -/
theorem ofBits_inf : Ideal.ofBits .f32 0x7F800000#32 = ⊤ := by
  simp [Ideal.ofBits, Ideal.ieee]

/-- An extended real whose absolute value compares below +infinity is a real. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  induction x using EReal.rec with
  | bot => exfalso; revert h; simp [FloatOps.cmpf, FloatOps.hostAbsf, Ideal.cmp, ofBits_inf]
  | coe r => exact ⟨r, rfl⟩
  | top => exfalso; revert h; simp [FloatOps.cmpf, FloatOps.hostAbsf, Ideal.cmp, ofBits_inf]

/-- Under the precondition every entry of both images is a real. -/
theorem finite_of_pre [Cert.Pre_finite_inputs.Facts] (x y : FVec Ideal Cert.Spec.SImg .f32)
    (h : Cert.Pre_finite_inputs.fn (F := Ideal) x y = fun _ => 1#1) :
    (∀ i, ∃ r : ℝ, x i = (r : EReal)) ∧ (∀ i, ∃ r : ℝ, y i = (r : EReal)) := by
  have h0 := congrFun h ValueIdx.ix0
  dsimp only [Cert.Pre_finite_inputs.fn] at h0
  obtain ⟨hx, hy⟩ := IntOp.andi_eq_one.1 h0
  refine ⟨fun i => ?_, fun i => ?_⟩
  · exact real_of_abs_lt_inf (x i) (Host.reduce_andi_all _ _ _ _ _ hx i)
  · exact real_of_abs_lt_inf (y i) (Host.reduce_andi_all _ _ _ _ _ hy i)

end Cert.Finite

end
-- ==== Proof.lean ====
/-
  The certificate's five claims.

  Each program runs to the end, faults nowhere and leaves the two argument images as launched: for the kernel
  as printed and for its idealization by the hand frames over the pipeline's launch theorem (@main is two
  reshapes, one region of twelve grid points, and 65 later host operations), for the reference by its run with
  the result dropped. The idealization rewrote nothing, so it preserves the kernel trivially.

  At the extended reals, from memories that agree on the two images, both programs end with the same 32 x 3
  array. The kernel accumulates per channel the five sums  sum x, sum y, sum x*x, sum y*y, sum x*y  over the
  channel's 512 x 512 positions and forms means, variances and covariance from these raw moments; the reference
  forms the means first and sums squared and mixed deviations. With n = 512*512 positions and mu = (sum x)/n,
      sum (x - mu)^2 = sum x*x - (sum x)^2 / n,      sum (x - mu1)(y - mu2) / n = (sum x*y)/n - mu1*mu2,
  which hold for real numbers; the precondition makes every image entry a real number, the literals 262144,
  262143 and 2 are exact and the two stabilising constants are the same words in both programs, so the two
  final quotients are the quotient of the same two reals.
-/
import proofs.«137015_j20375324852448_2_alg».proof.Defs
import proofs.«137015_j20375324852448_2_alg».proof.Proof.Gen.Kernel
import proofs.«137015_j20375324852448_2_alg».proof.Proof.Gen.KernelIdeal
import proofs.«137015_j20375324852448_2_alg».proof.Proof.Gen.ReferenceIdeal
import proofs.«137015_j20375324852448_2_alg».proof.Proof.Gen.Pre_finite_inputs
import proofs.«137015_j20375324852448_2_alg».proof.Proof.Gen.ReferenceIdeal.Run
import proofs.«137015_j20375324852448_2_alg».proof.Proof.Gen.ReferenceIdeal.Read
import proofs.«137015_j20375324852448_2_alg».proof.Proof.WordFrame
import proofs.«137015_j20375324852448_2_alg».proof.Proof.IdealFrame
import proofs.«137015_j20375324852448_2_alg».proof.Proof.IdealResult
import proofs.«137015_j20375324852448_2_alg».proof.Proof.RefBridge
import proofs.«137015_j20375324852448_2_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the two images, both idealized programs end at the specification's function of them. -/
theorem algebraic : Cert.algebraic_KernelIdeal_ReferenceIdeal := by
  intro m ρ m' ρ' hpre hagree
  refine ⟨fun c => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨?_, ?_, ?_⟩) (Cert.KernelIdeal.Hand.run_main m ρ)
    · exact ((h c).2 Cert.KernelIdeal.main_v54 Cert.KernelIdeal.Hand.main_v54_rest).trans (Cert.KernelIdeal.Hand.result_eq m c)
    · exact ((h c).2 Cert.KernelIdeal.main_arg0 Cert.KernelIdeal.Hand.main_arg0_rest).trans (Cert.KernelIdeal.Hand.tail_main_arg0 m c)
    · exact ((h c).2 Cert.KernelIdeal.main_arg1 Cert.KernelIdeal.Hand.main_arg1_rest).trans (Cert.KernelIdeal.Hand.tail_main_arg1 m c)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v43_eq, (hagree c).1, (hagree c).2]
    have hfin := Cert.Finite.finite_of_pre _ _ (hpre c)
    exact Cert.RefBridge.ref_eq_result _ _ hfin.1 hfin.2

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
